-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v1)) (v2 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_v2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v26) = v1 c
          ∧ r.2.mem ((c.tc : Thread Cert.ReferenceIdeal.nD Cert.ReferenceIdeal.τ).loc Cert.ReferenceIdeal.main_v22) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x512 : Shape := ⟨2, ![1024, 512]⟩
abbrev S50x8x512 : Shape := ⟨3, ![50, 8, 512]⟩
abbrev S8x512 : Shape := ⟨2, ![8, 512]⟩
abbrev S512x512 : Shape := ⟨2, ![512, 512]⟩
abbrev S_ : Shape := ⟨0, ![]⟩

class Facts : Prop where
  bcast_S_S1024x512 : S_.BroadcastsInDim S1024x512 (![] : Fin 0 → Fin S1024x512.rank)
  reducesTo_S1024x512_S_d0_1 : S1024x512.ReducesTo [0, 1] S_
  h_S_ : 0 < S_.numel
  bcast_S_S50x8x512 : S_.BroadcastsInDim S50x8x512 (![] : Fin 0 → Fin S50x8x512.rank)
  reducesTo_S50x8x512_S_d0_1_2 : S50x8x512.ReducesTo [0, 1, 2] S_
  bcast_S_S8x512 : S_.BroadcastsInDim S8x512 (![] : Fin 0 → Fin S8x512.rank)
  reducesTo_S8x512_S_d0_1 : S8x512.ReducesTo [0, 1] S_
  bcast_S_S512x512 : S_.BroadcastsInDim S512x512 (![] : Fin 0 → Fin S512x512.rank)
  reducesTo_S512x512_S_d0_1 : S512x512.ReducesTo [0, 1] S_

variable [Facts]

def fn_part1 {F : FTy → Type} [FloatOps F] (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  main_v18

def fn {F : FTy → Type} [FloatOps F] (main_arg0 : FVec F S1024x512 .f32) (main_arg1 : FVec F S50x8x512 .f32) (main_arg2 : FVec F S8x512 .f32) (main_arg3 : FVec F S512x512 .f32) : IVec S_ 1 :=
  let main_v0 : FVec F S1024x512 .f32 := Host.absf main_arg0
  let main_cst : FVec F S_ .f32 := constant S_ .f32 0x7F800000#32
  let main_v1 : FVec F S1024x512 .f32 := broadcastInDim S1024x512 ![] bcast_S_S1024x512 main_cst
  let main_v2 : IVec S1024x512 1 := cmpf .olt main_v0 main_v1
  let main_c : IVec S_ 1 := constantI S_ 1 1#1
  let main_v3 : IVec S_ 1 := (fun x v => Host.reduce IntOp.andi x v reducesTo_S1024x512_S_d0_1 h_S_) main_v2 main_c
  let main_v4 : FVec F S50x8x512 .f32 := Host.absf main_arg1
  let main_cst_0 : FVec F S_ .f32 := constant S_ .f32 0x7F800000#32
  let main_v5 : FVec F S50x8x512 .f32 := broadcastInDim S50x8x512 ![] bcast_S_S50x8x512 main_cst_0
  let main_v6 : IVec S50x8x512 1 := cmpf .olt main_v4 main_v5
  let main_c_1 : IVec S_ 1 := constantI S_ 1 1#1
  let main_v7 : IVec S_ 1 := (fun x v => Host.reduce IntOp.andi x v reducesTo_S50x8x512_S_d0_1_2 h_S_) main_v6 main_c_1
  let main_v8 : IVec S_ 1 := andi main_v3 main_v7
  let main_v9 : FVec F S8x512 .f32 := Host.absf main_arg2
  let main_cst_2 : FVec F S_ .f32 := constant S_ .f32 0x7F800000#32
  let main_v10 : FVec F S8x512 .f32 := broadcastInDim S8x512 ![] bcast_S_S8x512 main_cst_2
  let main_v11 : IVec S8x512 1 := cmpf .olt main_v9 main_v10
  let main_c_3 : IVec S_ 1 := constantI S_ 1 1#1
  let main_v12 : IVec S_ 1 := (fun x v => Host.reduce IntOp.andi x v reducesTo_S8x512_S_d0_1 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_v13 main_v16
-- ==== Kernel.lean ====
abbrev S1024x512 : Shape := ⟨2, ![1024, 512]⟩
abbrev S50x8x512 : Shape := ⟨3, ![50, 8, 512]⟩
abbrev S8x512 : Shape := ⟨2, ![8, 512]⟩
abbrev S512x512 : Shape := ⟨2, ![512, 512]⟩
abbrev S1024x8x512 : Shape := ⟨3, ![1024, 8, 512]⟩
abbrev S1024x8x50 : Shape := ⟨3, ![1024, 8, 50]⟩
abbrev S256x512 : Shape := ⟨2, ![256, 512]⟩
abbrev S256x8x512 : Shape := ⟨3, ![256, 8, 512]⟩
abbrev S256x8x50 : Shape := ⟨3, ![256, 8, 50]⟩
abbrev S1x512 : Shape := ⟨2, ![1, 512]⟩
abbrev S512 : Shape := ⟨1, ![512]⟩
abbrev S256x1x512 : Shape := ⟨3, ![256, 1, 512]⟩
abbrev S50x1x512 : Shape := ⟨3, ![50, 1, 512]⟩
abbrev S50x512 : Shape := ⟨2, ![50, 512]⟩
abbrev S512x50 : Shape := ⟨2, ![512, 50]⟩
abbrev S256x50 : Shape := ⟨2, ![256, 50]⟩
abbrev S256 : Shape := ⟨1, ![256]⟩
abbrev S256x1 : Shape := ⟨2, ![256, 1]⟩
abbrev S50 : Shape := ⟨1, ![50]⟩
abbrev S1x50 : Shape := ⟨2, ![1, 50]⟩
abbrev S256x1x50 : Shape := ⟨3, ![256, 1, 50]⟩
abbrev S1024x50x8 : Shape := ⟨3, ![1024, 50, 8]⟩

abbrev nBuf : Space → Nat
  | .hbm => 9
  | .vmem => 11
  | .smem => 0
  | _ => 0

abbrev bufTy : (tb : Table) → Fin (tcTables nBuf tb) → BufTy
  | .hbm, ⟨0, _⟩ => ⟨S1024x512, .f32⟩
  | .hbm, ⟨1, _⟩ => ⟨S50x8x512, .f32⟩
  | .hbm, ⟨2, _⟩ => ⟨S8x512, .f32⟩
  | .hbm, ⟨3, _⟩ => ⟨S512x512, .f32⟩
  | .hbm, ⟨4, _⟩ => ⟨S1024x8x512, .f32⟩
  | .hbm, ⟨5, _⟩ => ⟨S1024x8x50, .f32⟩
  | .hbm, ⟨6, _⟩ => ⟨S1024x8x50, .f32⟩
  | .hbm, ⟨7, _⟩ => ⟨S1024x50x8, .f32⟩
  | .hbm, ⟨8, _⟩ => ⟨S1024x50x8, .f32⟩
  | .local _ .vmem, ⟨0, _⟩ => ⟨S256x512, .f32⟩
  | .local _ .vmem, ⟨1, _⟩ => ⟨S256x512, .f32⟩
  | .local _ .vmem, ⟨2, _⟩ => ⟨S8x512, .f32⟩
  | .local _ .vmem, ⟨3, _⟩ => ⟨S512x512, .f32⟩
  | .local _ .vmem, ⟨4, _⟩ => ⟨S50x8x512, .f32⟩
  | .local _ .vmem, ⟨5, _⟩ => ⟨S256x8x512, .f32⟩
  | .local _ .vmem, ⟨6, _⟩ => ⟨S256x8x512, .f32⟩
  | .local _ .vmem, ⟨7, _⟩ => ⟨S256x8x50, .f32⟩
  | .local _ .vmem, ⟨8, _⟩ => ⟨S256x8x50, .f32⟩
  | .local _ .vmem, ⟨9, _⟩ => ⟨S256x8x50, .f32⟩
  | .local _ .vmem, ⟨10, _⟩ => ⟨S256x8x50, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x8x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x8x50 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x8x50 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  inb_S256x512_S256x512_0_0 : ∀ a, (![0, 0] : Fin 2 → Nat) a + S256x512.size a ≤ S256x512.size a
  h_S256x512 : 0 < S256x512.numel
  inb_S512x512_S512x512_0_0 : ∀ a, (![0, 0] : Fin 2 → Nat) a + S512x512.size a ≤ S512x512.size a
  h_S512x512 : 0 < S512x512.numel
  bitsLt_bf16_f32 : FTy.bits .bf16 < FTy.bits .f32
  inb_S8x512_S1x512_0_0 : ∀ a, (![0, 0] : Fin 2 → Nat) a + S1x512.size a ≤ S8x512.size a
  h_S1x512 : 0 < S1x512.numel
  shapeCasts_S1x512_S512 : S1x512.ShapeCasts S512
  shapeCasts_S512_S1x512 : S512.ShapeCasts S1x512
  broadcasts_S1x512_S256x512 : S1x512.Broadcasts S256x512
  inb_S256x8x512_S256x1x512_0_0_0 : ∀ a, (![0, 0, 0] : Fin 3 → Nat) a + S256x1x512.size a ≤ S256x8x512.size a
  h_S256x1x512 : 0 < S256x1x512.numel
  shapeCasts_S256x1x512_S256x512 : S256x1x512.ShapeCasts S256x512
  shapeCasts_S256x512_S256x1x512 : S256x512.ShapeCasts S256x1x512
  inb_S8x512_S1x512_1_0 : ∀ a, (![1, 0] : Fin 2 → Nat) a + S1x512.size a ≤ S8x512.size a
  inb_S256x8x512_S256x1x512_0_1_0 : ∀ a, (![0, 1, 0] : Fin 3 → Nat) a + S256x1x512.size a ≤ S256x8x512.size a
  inb_S8x512_S1x512_2_0 : ∀ a, (![2, 0] : Fin 2 → Nat) a + S1x512.size a ≤ S8x512.size a
  inb_S256x8x512_S256x1x512_0_2_0 : ∀ a, (![0, 2, 0] : Fin 3 → Nat) a + S256x1x512.size a ≤ S256x8x512.size a
  inb_S8x512_S1x512_3_0 : ∀ a, (![3, 0] : Fin 2 → Nat) a + S1x512.size a ≤ S8x512.size a
  inb_S256x8x512_S256x1x512_0_3_0 : ∀ a, (![0, 3, 0] : Fin 3 → Nat) a + S256x1x512.size a ≤ S256x8x512.size a
  inb_S8x512_S1x512_4_0 : ∀ a, (![4, 0] : Fin 2 → Nat) a + S1x512.size a ≤ S8x512.size a
  inb_S256x8x512_S256x1x512_0_4_0 : ∀ a, (![0, 4, 0] : Fin 3 → Nat) a + S256x1x512.size a ≤ S256x8x512.size a
  inb_S8x512_S1x512_5_0 : ∀ a, (![5, 0] : Fin 2 → Nat) a + S1x512.size a ≤ S8x512.size a
  inb_S256x8x512_S256x1x512_0_5_0 : ∀ a, (![0, 5, 0] : Fin 3 → Nat) a + S256x1x512.size a ≤ S256x8x512.size a
  inb_S8x512_S1x512_6_0 : ∀ a, (![6, 0] : Fin 2 → Nat) a + S1x512.size a ≤ S8x512.size a
  inb_S256x8x512_S256x1x512_0_6_0 : ∀ a, (![0, 6, 0] : Fin 3 → Nat) a + S256x1x512.size a ≤ S256x8x512.size a
  inb_S8x512_S1x512_7_0 : ∀ a, (![7, 0] : Fin 2 → Nat) a + S1x512.size a ≤ S8x512.size a
  inb_S256x8x512_S256x1x512_0_7_0 : ∀ a, (![0, 7, 0] : Fin 3 → Nat) a + S256x1x512.size a ≤ S256x8x512.size a
  inb_S50x8x512_S50x8x512_0_0_0 : ∀ a, (![0, 0, 0] : Fin 3 → Nat) a + S50x8x512.size a ≤ S50x8x512.size a
  h_S50x8x512 : 0 < S50x8x512.numel
  slices_S50x8x512_o0_0_0_S50x1x512 : S50x8x512.Slices ![0, 0, 0] S50x1x512
  shapeCasts_S50x1x512_S50x512 : S50x1x512.ShapeCasts S50x512
  transposes_S50x512_p1_0_S512x50 : S50x512.Transposes [1, 0] S512x50
  reduces_S256x512_S256 : S256x512.Reduces [1] S256
  shapeCasts_S256_S256x1 : S256.ShapeCasts S256x1
  inb_S50x8x512_S50x1x512_0_0_0 : ∀ a, (![0, 0, 0] : Fin 3 → Nat) a + S50x1x512.size a ≤ S50x8x512.size a
  h_S50x1x512 : 0 < S50x1x512.numel
  reduces_S50x512_S50 : S50x512.Reduces [1] S50
  broadcasts_S256x1_S256x50 : S256x1.Broadcasts S256x50
  shapeCasts_S50_S1x50 : S50.ShapeCasts S1x50
  broadcasts_S1x50_S256x50 : S1x50.Broadcasts S256x50
  slices_S50x8x512_o0_1_0_S50x1x512 : S50x8x512.Slices ![0, 1, 0] S50x1x512
  inb_S50x8x512_S50x1x512_0_1_0 : ∀ a, (![0, 1, 0] : Fin 3 → Nat) a + S50x1x512.size a ≤ S50x8x512.size a
  slices_S50x8x512_o0_2_0_S50x1x512 : S50x8x512.Slices ![0, 2, 0] S50x1x512
  inb_S50x8x512_S50x1x512_0_2_0 : ∀ a, (![0, 2, 0] : Fin 3 → Nat) a + S50x1x512.size a ≤ S50x8x512.size a
  slices_S50x8x512_o0_3_0_S50x1x512 : S50x8x512.Slices ![0, 3, 0] S50x1x512
  inb_S50x8x512_S50x1x512_0_3_0 : ∀ a, (![0, 3, 0] : Fin 3 → Nat) a + S50x1x512.size a ≤ S50x8x512.size a
  slices_S50x8x512_o0_4_0_S50x1x512 : S50x8x512.Slices ![0, 4, 0] S50x1x512
  inb_S50x8x512_S50x1x512_0_4_0 : ∀ a, (![0, 4, 0] : Fin 3 → Nat) a + S50x1x512.size a ≤ S50x8x512.size a
  slices_S50x8x512_o0_5_0_S50x1x512 : S50x8x512.Slices ![0, 5, 0] S50x1x512
  inb_S50x8x512_S50x1x512_0_5_0 : ∀ a, (![0, 5, 0] : Fin 3 → Nat) a + S50x1x512.size a ≤ S50x8x512.size a
  slices_S50x8x512_o0_6_0_S50x1x512 : S50x8x512.Slices ![0, 6, 0] S50x1x512
  inb_S50x8x512_S50x1x512_0_6_0 : ∀ a, (![0, 6, 0] : Fin 3 → Nat) a + S50x1x512.size a ≤ S50x8x512.size a
  slices_S50x8x512_o0_7_0_S50x1x512 : S50x8x512.Slices ![0, 7, 0] S50x1x512
  inb_S50x8x512_S50x1x512_0_7_0 : ∀ a, (![0, 7, 0] : Fin 3 → Nat) a + S50x1x512.size a ≤ S50x8x512.size a
  inb_S256x8x50_S256x1x50_0_0_0 : ∀ a, (![0, 0, 0] : Fin 3 → Nat) a + S256x1x50.size a ≤ S256x8x50.size a
  h_S256x1x50 : 0 < S256x1x50.numel
  shapeCasts_S256x1x50_S256x50 : S256x1x50.ShapeCasts S256x50
  shapeCasts_S256x50_S256x1x50 : S256x50.ShapeCasts S256x1x50
  inb_S256x8x50_S256x1x50_0_1_0 : ∀ a, (![0, 1, 0] : Fin 3 → Nat) a + S256x1x50.size a ≤ S256x8x50.size a
  inb_S256x8x50_S256x1x50_0_2_0 : ∀ a, (![0, 2, 0] : Fin 3 → Nat) a + S256x1x50.size a ≤ S256x8x50.size a
  inb_S256x8x50_S256x1x50_0_3_0 : ∀ a, (![0, 3, 0] : Fin 3 → Nat) a + S256x1x50.size a ≤ S256x8x50.size a
  inb_S256x8x50_S256x1x50_0_4_0 : ∀ a, (![0, 4, 0] : Fin 3 → Nat) a + S256x1x50.size a ≤ S256x8x50.size a
  inb_S256x8x50_S256x1x50_0_5_0 : ∀ a, (![0, 5, 0] : Fin 3 → Nat) a + S256x1x50.size a ≤ S256x8x50.size a
  inb_S256x8x50_S256x1x50_0_6_0 : ∀ a, (![0, 6, 0] : Fin 3 → Nat) a + S256x1x50.size a ≤ S256x8x50.size a
  inb_S256x8x50_S256x1x50_0_7_0 : ∀ a, (![0, 7, 0] : Fin 3 → Nat) a + S256x1x50.size a ≤ S256x8x50.size a
  transposes_S1024x8x50_S1024x50x8_0_2_1 : S1024x8x50.Transposes [0, 2, 1] S1024x50x8
  dot_S256x512_S512x512_S256x512_1_0_0_1_n_n_wf : DotDims.WF S256x512 S512x512 S256x512 [1] [0] [0] [1] [] []
  dot_S256x512_S512x50_S256x50_1_0_0_1_n_n_wf : DotDims.WF S256x512 S512x50 S256x50 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S1024x512.size a
  hwx0_0 : ∀ i : grid0.Coords, EltTy.bits .f32 = 32 ∨ (Rect.block (s := S1024x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x512.size a ≤ S8x512.size a
  hwx0_1 : ∀ i : grid0.Coords, EltTy.bits .f32 = 32 ∨ (Rect.block (s := S8x512) S8x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x8x512.size a ≤ S50x8x512.size a
  hwx0_3 : ∀ i : grid0.Coords, EltTy.bits .f32 = 32 ∨ (Rect.block (s := S50x8x512) S50x8x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x8x512.size a ≤ S1024x8x512.size a
  hwx0_4 : ∀ i : grid0.Coords, EltTy.bits .f32 = 32 ∨ (Rect.block (s := S1024x8x512) S256x8x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x8x50.size a ≤ S1024x8x50.size a
  hwx0_5 : ∀ i : grid0.Coords, EltTy.bits .f32 = 32 ∨ (Rect.block (s := S1024x8x50) S256x8x50.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x8x50.size a ≤ S1024x8x50.size a
  hwx0_6 : ∀ i : grid0.Coords, EltTy.bits .f32 = 32 ∨ (Rect.block (s := S1024x8x50) S256x8x50.size (cc0_transform_6 i) (hinb0_6 i)).WholeWords (EltTy.packing .f32)

variable [Facts₀]

def dot_S256x512_S512x512_S256x512_1_0_0_1_n_n : DotDims S256x512 S512x512 S256x512 where
  lhsContracting := [1]
  rhsContracting := [0]
  lhsNonContracting := [0]
  rhsNonContracting := [1]
  lhsBatch := []
  rhsBatch := []
  wf := dot_S256x512_S512x512_S256x512_1_0_0_1_n_n_wf
def dot_S256x512_S512x50_S256x50_1_0_0_1_n_n : DotDims S256x512 S512x50 S256x50 where
  lhsContracting := [1]
  rhsContracting := [0]
  lhsNonContracting := [0]
  rhsNonContracting := [1]
  lhsBatch := []
  rhsBatch := []
  wf := dot_S256x512_S512x50_S256x50_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S8x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S50x8x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S256x8x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S256x8x50.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_2) S256x8x50.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S1024x512 : Shape := ⟨2, ![1024, 512]⟩
abbrev S50x8x512 : Shape := ⟨3, ![50, 8, 512]⟩
abbrev S8x512 : Shape := ⟨2, ![8, 512]⟩
abbrev S512x512 : Shape := ⟨2, ![512, 512]⟩
abbrev S1024x1x512 : Shape := ⟨3, ![1024, 1, 512]⟩
abbrev S1x8x512 : Shape := ⟨3, ![1, 8, 512]⟩
abbrev S1024x8x512 : Shape := ⟨3, ![1024, 8, 512]⟩
abbrev S1024x1x8x512 : Shape := ⟨4, ![1024, 1, 8, 512]⟩
abbrev S1x50x8x512 : Shape := ⟨4, ![1, 50, 8, 512]⟩
abbrev S1024x50x8x512 : Shape := ⟨4, ![1024, 50, 8, 512]⟩
abbrev S_ : Shape := ⟨0, ![]⟩
abbrev S1024x50x8 : Shape := ⟨3, ![1024, 50, 8]⟩
abbrev S1024x50 : Shape := ⟨2, ![1024, 50]⟩
abbrev S1024x50x1 : Shape := ⟨3, ![1024, 50, 1]⟩

abbrev nBuf : Space → Nat
  | .hbm => 37
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S50x8x512, .f32⟩
  | .hbm, ⟨2, _⟩ => ⟨S8x512, .f32⟩
  | .hbm, ⟨3, _⟩ => ⟨S512x512, .f32⟩
  | .hbm, ⟨4, _⟩ => ⟨S1024x1x512, .f32⟩
  | .hbm, ⟨5, _⟩ => ⟨S1x8x512, .f32⟩
  | .hbm, ⟨6, _⟩ => ⟨S1024x8x512, .f32⟩
  | .hbm, ⟨7, _⟩ => ⟨S1024x8x512, .f32⟩
  | .hbm, ⟨8, _⟩ => ⟨S1024x8x512, .f32⟩
  | .hbm, ⟨9, _⟩ => ⟨S1024x8x512, .f32⟩
  | .hbm, ⟨10, _⟩ => ⟨S1024x1x8x512, .f32⟩
  | .hbm, ⟨11, _⟩ => ⟨S1x50x8x512, .f32⟩
  | .hbm, ⟨12, _⟩ => ⟨S1024x50x8x512, .f32⟩
  | .hbm, ⟨13, _⟩ => ⟨S1024x50x8x512, .f32⟩
  | .hbm, ⟨14, _⟩ => ⟨S1024x50x8x512, .f32⟩
  | .hbm, ⟨15, _⟩ => ⟨S1024x50x8x512, .f32⟩
  | .hbm, ⟨16, _⟩ => ⟨S_, .f32⟩
  | .hbm, ⟨17, _⟩ => ⟨S1024x50x8, .f32⟩
  | .hbm, ⟨18, _⟩ => ⟨S_, .f32⟩
  | .hbm, ⟨19, _⟩ => ⟨S1024x50x8, .f32⟩
  | .hbm, ⟨20, _⟩ => ⟨S1024x50x8, .f32⟩
  | .hbm, ⟨21, _⟩ => ⟨S_, .f32⟩
  | .hbm, ⟨22, _⟩ => ⟨S1024x50x8, .f32⟩
  | .hbm, ⟨23, _⟩ => ⟨S1024x50x8, .f32⟩
  | .hbm, ⟨24, _⟩ => ⟨S_, .f32⟩
  | .hbm, ⟨25, _⟩ => ⟨S1024x50, .f32⟩
  | .hbm, ⟨26, _⟩ => ⟨S1024x50x1, .f32⟩
  | .hbm, ⟨27, _⟩ => ⟨S_, .f32⟩
  | .hbm, ⟨28, _⟩ => ⟨S1024x50x1, .f32⟩
  | .hbm, ⟨29, _⟩ => ⟨S1024x50x1, .f32⟩
  | .hbm, ⟨30, _⟩ => ⟨S1024x50x8, .f32⟩
  | .hbm, ⟨31, _⟩ => ⟨S1024x50x8, .f32⟩
  | .hbm, ⟨32, _⟩ => ⟨S_, .f32⟩
  | .hbm, ⟨33, _⟩ => ⟨S1024x50, .f32⟩
  | .hbm, ⟨34, _⟩ => ⟨S1024x50x1, .f32⟩
  | .hbm, ⟨35, _⟩ => ⟨S1024x50x8, .f32⟩
  | .hbm, ⟨36, _⟩ => ⟨S1024x50x8, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩

abbrev nD : Nat := 1
abbrev τ : Topo := Topo.v7x

variable {F : FTy → Type} [FloatOps F]

class Facts₀ : Prop where
  bcast_S1024x512_S1024x1x512_0_2 : S1024x512.BroadcastsInDim S1024x1x512 (![0, 2] : Fin 2 → Fin S1024x1x512.rank)
  bcast_S8x512_S1x8x512_1_2 : S8x512.BroadcastsInDim S1x8x512 (![1, 2] : Fin 2 → Fin S1x8x512.rank)
  bcast_S1024x1x512_S1024x8x512_0_1_2 : S1024x1x512.BroadcastsInDim S1024x8x512 (![0, 1, 2] : Fin 3 → Fin S1024x8x512.rank)
  bcast_S1x8x512_S1024x8x512_0_1_2 : S1x8x512.BroadcastsInDim S1024x8x512 (![0, 1, 2] : Fin 3 → Fin S1024x8x512.rank)
  bcast_S1024x8x512_S1024x1x8x512_0_2_3 : S1024x8x512.BroadcastsInDim S1024x1x8x512 (![0, 2, 3] : Fin 3 → Fin S1024x1x8x512.rank)
  bcast_S50x8x512_S1x50x8x512_1_2_3 : S50x8x512.BroadcastsInDim S1x50x8x512 (![1, 2, 3] : Fin 3 → Fin S1x50x8x512.rank)
  bcast_S1024x1x8x512_S1024x50x8x512_0_1_2_3 : S1024x1x8x512.BroadcastsInDim S1024x50x8x512 (![0, 1, 2, 3] : Fin 4 → Fin S1024x50x8x512.rank)
  bcast_S1x50x8x512_S1024x50x8x512_0_1_2_3 : S1x50x8x512.BroadcastsInDim S1024x50x8x512 (![0, 1, 2, 3] : Fin 4 → Fin S1024x50x8x512.rank)
  reducesTo_S1024x50x8x512_S1024x50x8_d3 : S1024x50x8x512.ReducesTo [3] S1024x50x8
  h_S_ : 0 < S_.numel
  bcast_S_S1024x50x8 : S_.BroadcastsInDim S1024x50x8 (![] : Fin 0 → Fin S1024x50x8.rank)
  reducesTo_S1024x50x8_S1024x50_d2 : S1024x50x8.ReducesTo [2] S1024x50
  bcast_S1024x50_S1024x50x1_0_1 : S1024x50.BroadcastsInDim S1024x50x1 (![0, 1] : Fin 2 → Fin S1024x50x1.rank)
  bcast_S_S1024x50x1 : S_.BroadcastsInDim S1024x50x1 (![] : Fin 0 → Fin S1024x50x1.rank)
  bcast_S1024x50x1_S1024x50x8_0_1_2 : S1024x50x1.BroadcastsInDim S1024x50x8 (![0, 1, 2] : Fin 3 → Fin S1024x50x8.rank)
  dot_S1024x8x512_S512x512_S1024x8x512_2_0_01_1_n_n_wf : DotDims.WF S1024x8x512 S512x512 S1024x8x512 [2] [0] [0, 1] [1] [] []

variable [Facts₀]

def dot_S1024x8x512_S512x512_S1024x8x512_2_0_01_1_n_n : DotDims S1024x8x512 S512x512 S1024x8x512 where
  lhsContracting := [2]
  rhsContracting := [0]
  lhsNonContracting := [0, 1]
  rhsNonContracting := [1]
  lhsBatch := []
  rhsBatch := []
  wf := dot_S1024x8x512_S512x512_S1024x8x512_2_0_01_1_n_n_wf

class Facts : Prop extends Facts₀ where

variable [Facts]
-- ==== Proof.KernelUniform.lean ====
/-
  The kernel body's arithmetic, centre by centre, in ONE form.

  The body treats its eight centres alike: for centre c it multiplies the block of rows by mask row c and by W on the
  matrix unit (the projection slab P_c), stores the slab, reads it back, and forms the score
  1 / ((1 + Σ P_c²) − 2·P_c·μ_cᵀ + Σ μ_c²). Here each of the two steps is written once, as a function of the slab's
  operands; every centre's arithmetic is that function, by unfolding.
-/
import proofs.«173172_j47614007444072_2_alg».proof.Proof.Gen.KernelIdeal.Skeleton

noncomputable section

namespace Cert.KUniform

open Idealize.ShloMosaic Cert.KernelIdeal Cert.KernelIdeal.Gen

variable {F : FTy → Type} [FloatOps F]

/-- One centre's projection of a block of rows: (x ⊙ mask row) · W. -/
def projBlk (x : Vec F S256x512 .f32) (w : Vec F S512x512 .f32) (mrow : Vec F S1x512 .f32) : FVec F S256x512 .f32 :=
  matmul dot_S256x512_S512x512_S256x512_1_0_0_1_n_n none
    (truncf .bf16 (mulf x (broadcastTo S256x512 (shapeCast S1x512 (shapeCast S512 mrow shapeCasts_S1x512_S512)
      shapeCasts_S512_S1x512) broadcasts_S1x512_S256x512)) bitsLt_bf16_f32)
    (truncf .bf16 w bitsLt_bf16_f32) (constant S256x512 .f32 0x00000000#32)

/-- A [256, 512] slab with the centre axis put back as a unit axis, as it is stored. -/
def slab (v : FVec F S256x512 .f32) : FVec F S256x1x512 .f32 :=
  shapeCast S256x1x512 v shapeCasts_S256x512_S256x1x512

/-- One centre's score from its projection slab P (as read back, [256, 1, 512]), the centres μ (whole, for the matrix
    product with slab `off`) and the centre's own slab of μ (for Σ μ²). -/
def scoreBlk (off : Fin 3 → ℕ) (hsl : S50x8x512.Slices off S50x1x512) (mu : Vec F S50x8x512 .f32)
    (mulc : Vec F S256x1x512 .f32) (muc : Vec F S50x1x512 .f32) : FVec F S256x50 .f32 :=
  divf (broadcast S256x50 (Scalar.ofBits .f32 0x3F800000#32))
    (addf
      (subf
        (broadcastTo S256x50
          (addf (broadcast S256x1 (Scalar.ofBits .f32 0x3F800000#32))
            (shapeCast S256x1
              (multiReduction .add [1] S256
                (mulf (shapeCast S256x512 mulc shapeCasts_S256x1x512_S256x512)
                  (shapeCast S256x512 mulc shapeCasts_S256x1x512_S256x512))
                0x00000000#32 reduces_S256x512_S256 (.inl rfl) rfl)
              shapeCasts_S256_S256x1))
          broadcasts_S256x1_S256x50)
        (mulf (broadcast S256x50 (Scalar.ofBits .f32 0x40000000#32))
          (matmul dot_S256x512_S512x50_S256x50_1_0_0_1_n_n none
            (truncf .bf16 (shapeCast S256x512 mulc shapeCasts_S256x1x512_S256x512) bitsLt_bf16_f32)
            (transpose S512x50 [1, 0]
              (shapeCast S50x512 (extractStridedSlice S50x1x512 off (truncf .bf16 mu bitsLt_bf16_f32) hsl)
                shapeCasts_S50x1x512_S50x512)
              transposes_S50x512_p1_0_S512x50)
            (constant S256x50 .f32 0x00000000#32))))
      (broadcastTo S256x50
        (shapeCast S1x50
          (multiReduction .add [1] S50
            (mulf (shapeCast S50x512 muc shapeCasts_S50x1x512_S50x512)
              (shapeCast S50x512 muc shapeCasts_S50x1x512_S50x512))
            0x00000000#32 reduces_S50x512_S50 (.inl rfl) rfl)
          shapeCasts_S50_S1x50)
        broadcasts_S1x50_S256x50))

/-- A [256, 50] score with the centre axis put back as a unit axis, as it is stored. -/
def slab50 (v : FVec F S256x50 .f32) : FVec F S256x1x50 .f32 :=
  shapeCast S256x1x50 v shapeCasts_S256x50_S256x1x50

/-! ## Every centre's stored projection is `slab (projBlk …)` -/

theorem proj0 (v0 : Vec F S256x512 .f32) (v1 : Vec F S512x512 .f32) (r : Vec F S1x512 .f32) :
    k0_pay9 v0 v1 r = slab (projBlk v0 v1 r) := rfl
theorem proj1 (v0 : Vec F S256x512 .f32) (v1 : Vec F S512x512 .f32) (r : Vec F S1x512 .f32) :
    k0_pay10 v0 v1 r = slab (projBlk v0 v1 r) := rfl
theorem proj2 (v0 : Vec F S256x512 .f32) (v1 : Vec F S512x512 .f32) (r : Vec F S1x512 .f32) :
    k0_pay11 v0 v1 r = slab (projBlk v0 v1 r) := rfl
theorem proj3 (v0 : Vec F S256x512 .f32) (v1 : Vec F S512x512 .f32) (r : Vec F S1x512 .f32) :
    k0_pay12 v0 (k0_pay8 v1) r = slab (projBlk v0 v1 r) := rfl
theorem proj4 (v0 : Vec F S256x512 .f32) (v1 : Vec F S512x512 .f32) (r : Vec F S1x512 .f32) :
    k0_pay13 v0 (k0_pay8 v1) r = slab (projBlk v0 v1 r) := rfl
theorem proj5 (v0 : Vec F S256x512 .f32) (v1 : Vec F S512x512 .f32) (r : Vec F S1x512 .f32) :
    k0_pay14 v0 (k0_pay8 v1) r = slab (projBlk v0 v1 r) := rfl
theorem proj6 (v0 : Vec F S256x512 .f32) (v1 : Vec F S512x512 .f32) (r : Vec F S1x512 .f32) :
    k0_pay16 (k0_pay15 v0 (k0_pay8 v1) r) = slab (projBlk v0 v1 r) := rfl
theorem proj7 (v0 : Vec F S256x512 .f32) (v1 : Vec F S512x512 .f32) (r : Vec F S1x512 .f32) :
    k0_pay17 v0 (k0_pay8 v1) r = slab (projBlk v0 v1 r) := rfl

/-! ## Every centre's score is `scoreBlk …` -/

theorem score0 (mu : Vec F S50x8x512 .f32) (p : Vec F S256x1x512 .f32) (muc : Vec F S50x1x512 .f32) :
    k0_pay21 (k0_pay19 muc) (k0_pay20 mu p) = scoreBlk ![0, 0, 0] slices_S50x8x512_o0_0_0_S50x1x512 mu p muc := rfl
theorem score1 (mu : Vec F S50x8x512 .f32) (p : Vec F S256x1x512 .f32) (muc : Vec F S50x1x512 .f32) :
    k0_pay22 (k0_pay18 mu) p muc = scoreBlk ![0, 1, 0] slices_S50x8x512_o0_1_0_S50x1x512 mu p muc := rfl
theorem score2 (mu : Vec F S50x8x512 .f32) (p : Vec F S256x1x512 .f32) (muc : Vec F S50x1x512 .f32) :
    k0_pay26 (k0_pay24 (k0_pay18 mu) p) (k0_pay25 p) muc = scoreBlk ![0, 2, 0] slices_S50x8x512_o0_2_0_S50x1x512 mu p muc := rfl
theorem score3 (mu : Vec F S50x8x512 .f32) (p : Vec F S256x1x512 .f32) (muc : Vec F S50x1x512 .f32) :
    k0_pay27 (k0_pay18 mu) p muc = scoreBlk ![0, 3, 0] slices_S50x8x512_o0_3_0_S50x1x512 mu p muc := rfl
theorem score4 (mu : Vec F S50x8x512 .f32) (p : Vec F S256x1x512 .f32) (muc : Vec F S50x1x512 .f32) :
    k0_pay28 (k0_pay18 mu) p muc = scoreBlk ![0, 4, 0] slices_S50x8x512_o0_4_0_S50x1x512 mu p muc := rfl
theorem score5 (mu : Vec F S50x8x512 .f32) (p : Vec F S256x1x512 .f32) (muc : Vec F S50x1x512 .f32) :
    k0_pay33 (k0_pay30 (k0_pay18 mu) p) (k0_pay31 muc) (k0_pay32 p) = scoreBlk ![0, 5, 0] slices_S50x8x512_o0_5_0_S50x1x512 mu p muc := rfl
theorem score6 (mu : Vec F S50x8x512 .f32) (p : Vec F S256x1x512 .f32) (muc : Vec F S50x1x512 .f32) :
    k0_pay34 (k0_pay18 mu) p muc = scoreBlk ![0, 6, 0] slices_S50x8x512_o0_6_0_S50x1x512 mu p muc := rfl
theorem score7 (mu : Vec F S50x8x512 .f32) (p : Vec F S256x1x512 .f32) (muc : Vec F S50x1x512 .f32) :
    k0_pay38 (k0_pay36 (k0_pay18 mu) p) (k0_pay37 p) muc = scoreBlk ![0, 7, 0] slices_S50x8x512_o0_7_0_S50x1x512 mu p muc := rfl

end Cert.KUniform

end
-- ==== Proof.LibRealEntries.lean ====
/-
  Reusable lemmas: arrays over the extended reals all of whose entries are real numbers.

  An extended real is either a real number or one of the two infinities.  Sums and products of real numbers are real,
  the cosine and the sine of a real number are real, a quotient of a real number by a non-zero real number is real,
  and the 32-bit float patterns whose exponent field is not all ones denote real numbers.  The operations that only
  re-index an array (a broadcast along named axes, a reshape, a transpose, a concatenation) read each result entry
  from an operand entry, so they carry "every entry is real" from the operands to the result; so do the entrywise
  product, negation, cosine, sine and quotient, and a matrix product (a finite sum of products).

  The last part is the one algebraic law the file is for: for matrices with real entries the product is associative,
  entry by entry, as an identity between extended reals — (A·B)·C = A·(B·C).  Over the extended reals this needs the
  entries to be real: with infinities a product does not distribute over a sum.
-/
import Idealize.ShloMosaic.PureOps.Ideal.Laws
import Idealize.ShloMosaic.Lib.ValueIdx

noncomputable section

namespace Cert.RealEntries

open Idealize.ShloMosaic Idealize.ShloMosaic.ValueIdx

/-! ## Real numbers among the extended reals -/

/-- The extended real is a real number. -/
def IsR (x : EReal) : Prop := ∃ r : ℝ, x = (r : EReal)

theorem IsR.coe (r : ℝ) : IsR (r : EReal) := ⟨r, rfl⟩

theorem IsR.zero : IsR 0 := ⟨0, rfl⟩

theorem IsR.mul {x y : EReal} (hx : IsR x) (hy : IsR y) : IsR (x * y) := by
  obtain ⟨a, rfl⟩ := hx; obtain ⟨b, rfl⟩ := hy; exact ⟨a * b, (EReal.coe_mul a b).symm⟩

theorem IsR.add {x y : EReal} (hx : IsR x) (hy : IsR y) : IsR (x + y) := by
  obtain ⟨a, rfl⟩ := hx; obtain ⟨b, rfl⟩ := hy; exact ⟨a + b, (EReal.coe_add a b).symm⟩

theorem IsR.neg {x : EReal} (hx : IsR x) : IsR (-x) := by
  obtain ⟨a, rfl⟩ := hx; exact ⟨-a, (EReal.coe_neg a).symm⟩

theorem IsR.sum {ι : Type*} (s : Finset ι) (f : ι → EReal) (h : ∀ i ∈ s, IsR (f i)) : IsR (∑ i ∈ s, f i) := by
  classical
  induction s using Finset.induction_on with
  | empty => rw [Finset.sum_empty]; exact IsR.zero
  | insert a s ha ih =>
    rw [Finset.sum_insert ha]
    exact (h a (Finset.mem_insert_self a s)).add (ih fun i hi => h i (Finset.mem_insert_of_mem hi))

theorem IsR.cos {x : EReal} (hx : IsR x) : IsR (Ideal.cos x) := by
  obtain ⟨a, rfl⟩ := hx; exact ⟨Real.cos a, rfl⟩

theorem IsR.sin {x : EReal} (hx : IsR x) : IsR (Ideal.sin x) := by
  obtain ⟨a, rfl⟩ := hx; exact ⟨Real.sin a, rfl⟩

/-- A real number divided by a non-zero real number. -/
theorem IsR.div {x y : EReal} (hx : IsR x) {b : ℝ} (hy : y = (b : EReal)) (hb : b ≠ 0) : IsR (Ideal.div x y) := by
  subst hy
  rw [Ideal.div_coe hb]
  exact hx.mul (IsR.coe _)

/-- A 32-bit float pattern whose exponent field is not all ones denotes a real number. -/
theorem isR_ofBits_f32 (w : BitVec 32) (h : (w.extractLsb' 23 8).toNat ≠ 255) : IsR (Ideal.ofBits .f32 w) := by
  show IsR (Ideal.ieee 8 23 w)
  unfold Ideal.ieee
  dsimp only
  rw [if_neg (by norm_num; exact h)]
  split_ifs <;> exact ⟨_, rfl⟩

/-- The pattern of 2.0 denotes the real number 2. -/
theorem ofBits_two : Ideal.ofBits .f32 0x40000000#32 = ((2 : ℝ) : EReal) := by
  simp [Ideal.ofBits, Ideal.ieee, -EReal.coe_mul]; norm_num

/-! ## Arrays of real numbers -/

variable {s t : Shape} {φ : FTy}

/-- Every entry of the array is a real number. -/
def AllReal (x : FVec Ideal s φ) : Prop := ∀ i, IsR (x i)

/-- A broadcast along named axes reads every entry from the operand. -/
theorem AllReal.of_broadcastInDim {x : FVec Ideal s φ} (hx : AllReal x) (dims : Fin s.rank → Fin t.rank)
    (h : s.BroadcastsInDim t dims) : AllReal (φ := φ) (broadcastInDim t dims h x) := by
  intro j; unfold Idealize.ShloMosaic.broadcastInDim; exact hx _

/-- A reshape reads every entry from the operand. -/
theorem AllReal.of_shapeCast {x : FVec Ideal s φ} (hx : AllReal x) (h : s.ShapeCasts t) :
    AllReal (φ := φ) (shapeCast t x h) := by
  intro j; unfold Idealize.ShloMosaic.shapeCast; exact hx _

/-- A transpose reads every entry from the operand. -/
theorem AllReal.of_transpose {x : FVec Ideal s φ} (hx : AllReal x) (perm : List (Fin s.rank)) (h : s.Transposes perm t) :
    AllReal (φ := φ) (transpose t perm x h) := by
  intro j; unfold Idealize.ShloMosaic.transpose; exact hx _

/-- A concatenation reads every entry from one of the pieces. -/
theorem AllReal.of_concatenate (a : Fin t.rank) (xs : List ((s : Shape) × (s.Idx → EReal)))
    (h : Shape.Concatenates (xs.map (·.1)) t a) (hxs : ∀ p ∈ xs, ∀ i, IsR (p.2 i)) :
    AllReal (φ := φ) (concatenate t a xs h) := by
  intro j; unfold Idealize.ShloMosaic.concatenate; dsimp only
  exact hxs _ (List.getElem_mem _) _

/-- A concatenation of two pieces. -/
theorem AllReal.of_concatenate₂ {s₁ s₂ : Shape} (a : Fin t.rank) {x : FVec Ideal s₁ φ} {y : FVec Ideal s₂ φ}
    (hx : AllReal x) (hy : AllReal y) (h : Shape.Concatenates [s₁, s₂] t a) :
    AllReal (φ := φ) (concatenate t a [⟨s₁, x⟩, ⟨s₂, y⟩] h) :=
  AllReal.of_concatenate a [⟨s₁, x⟩, ⟨s₂, y⟩] h fun p hp => by
    simp only [List.mem_cons, List.not_mem_nil, or_false] at hp
    rcases hp with rfl | rfl
    · exact hx
    · exact hy

/-- The entrywise product. -/
theorem AllReal.of_mulf {x y : FVec Ideal s φ} (hx : AllReal x) (hy : AllReal y) : AllReal (mulf x y) :=
  fun i => (hx i).mul (hy i)

/-- The entrywise negation on the host. -/
theorem AllReal.of_hostNegf {x : FVec Ideal s φ} (hx : AllReal x) : AllReal (Host.negf x) :=
  fun i => (hx i).neg

/-- The entrywise cosine on the host. -/
theorem AllReal.of_hostCos {x : FVec Ideal s φ} (hx : AllReal x) : AllReal (Host.cos x) :=
  fun i => (hx i).cos

/-- The entrywise sine on the host. -/
theorem AllReal.of_hostSin {x : FVec Ideal s φ} (hx : AllReal x) : AllReal (Host.sin x) :=
  fun i => (hx i).sin

/-- The entrywise quotient on the host by the splat of the float 2.0. -/
theorem AllReal.of_hostDivTwo {x : FVec Ideal s .f32} (hx : AllReal x) :
    AllReal (Host.divf x (constant (F := Ideal) s .f32 0x40000000#32)) :=
  fun i => (hx i).div ofBits_two (by norm_num)

/-- A table of 32-bit float patterns none of whose exponent fields is all ones. -/
theorem AllReal.ofTable (f : s.Idx → BitVec 32) (h : ∀ i, ((f i).extractLsb' 23 8).toNat ≠ 255) :
    AllReal (φ := .f32) (fun i => (FloatOps.ofBits (F := Ideal) .f32 (f i) : Ideal .f32)) :=
  fun i => isR_ofBits_f32 _ (h i)

/-! ## Matrices of real numbers -/

variable {M K N L : Nat}

/-- A matrix product of two matrices of real numbers, read at each entry as the sum over the inner index, has real
    entries. -/
theorem allReal_of_sum {x : FVec Ideal ⟨2, ![M, N]⟩ φ} (a : Fin M → Fin K → EReal) (b : Fin K → Fin N → EReal)
    (ha : ∀ p k, IsR (a p k)) (hb : ∀ k q, IsR (b k q))
    (hx : ∀ p q, x (ix2 p q) = ∑ k : Fin K, a p k * b k q) : AllReal x := by
  intro j
  obtain ⟨p, q, rfl⟩ : ∃ (p : Fin M) (q : Fin N), j = ix2 p q := ⟨j 0, j 1, eq_ix2 j⟩
  rw [hx]
  exact IsR.sum _ _ fun k _ => (ha _ k).mul (hb k _)

/-- The coercion from the reals commutes with finite sums. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- ASSOCIATIVITY of the product of matrices of real numbers, entry by entry, over the extended reals:
    Σ_j (Σ_i A[p,i]·B[i,j])·C[j,q] = Σ_i A[p,i]·(Σ_j B[i,j]·C[j,q]). -/
theorem matmul_assoc (A : Fin M → Fin K → EReal) (B : Fin K → Fin L → EReal) (C : Fin L → Fin N → EReal)
    (hA : ∀ p i, IsR (A p i)) (hB : ∀ i j, IsR (B i j)) (hC : ∀ j q, IsR (C j q)) (p : Fin M) (q : Fin N) :
    ∑ j : Fin L, (∑ i : Fin K, A p i * B i j) * C j q = ∑ i : Fin K, A p i * ∑ j : Fin L, B i j * C j q := by
  choose a ha using hA
  choose b hb using hB
  choose c hc using hC
  simp only [ha, hb, hc, ← EReal.coe_mul, ← coe_sum]
  rw [EReal.coe_eq_coe_iff]
  simp only [Finset.sum_mul, Finset.mul_sum]
  rw [Finset.sum_comm]
  exact Finset.sum_congr rfl fun i _ => Finset.sum_congr rfl fun j _ => mul_assoc _ _ _

end Cert.RealEntries

end
-- ==== Proof.Spec.lean ====
/-
  The three results as functions of the four argument arrays, over the extended reals, entry by entry.

  With x the [B, 512] batch, m the [8, 512] masks, W the [512, 512] projection and μ the [50, 8, 512] centres:

      P[b, c, d]  = Σ_h (x[b, h] · m[c, h]) · W[h, d]                         (the masked projection)
      s[b, k, c]  = 1 / (1 + Σ_h (P[b, c, h] − μ[k, c, h])²)                  (the Student-t score)
      D[b, k, c]  = s[b, k, c] / (Σ_c' s[b, k, c'] + ε)                       (normalised over the centres)
      A[b, k, c]  = D[b, k, c] / Σ_c' D[b, k, c']                             (normalised once more)

  The squared distance is met in two arrangements: the sum of squared differences, and the expanded form
  (1 + Σ P²) − 2·Σ P·μ + Σ μ², which replaces the [B, 50, 8, 512] array of differences by a matrix product. They agree
  when every P and μ entry is a real number: (a − b)² = a² − 2ab + b² summed over h — an identity of the reals which fails
  on the extended reals at the infinities, so the entries being real is used. Everything is generic in the number of
  batch rows B, so that the same functions describe a block of rows and the whole batch.
-/
import Idealize.ShloMosaic.PureOps.Ideal
import Idealize.ShloMosaic.Lib.ValueIdx
import proofs.«173172_j47614007444072_2_alg».proof.Proof.LibRealEntries

noncomputable section

namespace Cert.Spec

open Idealize.ShloMosaic Idealize.ShloMosaic.ValueIdx Cert.RealEntries

/-- The float 1.0, 2.0 and the ε of the first normalisation, as the extended reals their patterns denote. -/
abbrev one : EReal := Ideal.ofBits .f32 0x3F800000#32
abbrev two : EReal := Ideal.ofBits .f32 0x40000000#32
abbrev eps : EReal := Ideal.ofBits .f32 0x322BCC77#32

theorem one_eq : one = ((1 : ℝ) : EReal) := by
  show Ideal.ofBits .f32 0x3F800000#32 = _
  simp [Ideal.ofBits, Ideal.ieee, -EReal.coe_mul]; norm_num

theorem two_eq : two = ((2 : ℝ) : EReal) := ofBits_two

variable {B : ℕ}

/-- The masked projection. -/
def proj (x : Fin B → Fin 512 → EReal) (msk : Fin 8 → Fin 512 → EReal) (w : Fin 512 → Fin 512 → EReal)
    (b : Fin B) (c : Fin 8) (d : Fin 512) : EReal :=
  ∑ h : Fin 512, (x b h * msk c h) * w h d

/-- The score with the squared distance expanded: (1 + Σ P²) − 2·Σ P·μ + Σ μ². -/
def scoreK (P : Fin B → Fin 8 → Fin 512 → EReal) (mu : Fin 50 → Fin 8 → Fin 512 → EReal)
    (b : Fin B) (k : Fin 50) (c : Fin 8) : EReal :=
  Ideal.div one (((one + ∑ h : Fin 512, P b c h * P b c h) - two * ∑ h : Fin 512, P b c h * mu k c h)
    + ∑ h : Fin 512, mu k c h * mu k c h)

/-- The score with the squared distance as the sum of squared differences. -/
def scoreR (P : Fin B → Fin 8 → Fin 512 → EReal) (mu : Fin 50 → Fin 8 → Fin 512 → EReal)
    (b : Fin B) (k : Fin 50) (c : Fin 8) : EReal :=
  Ideal.div one (one + ∑ h : Fin 512, (P b c h - mu k c h) * (P b c h - mu k c h))

/-- The first normalisation, over the centres, with ε added to the sum. -/
def dist (S : Fin B → Fin 50 → Fin 8 → EReal) (b : Fin B) (k : Fin 50) (c : Fin 8) : EReal :=
  Ideal.div (S b k c) ((∑ c' : Fin 8, S b k c') + eps)

/-- The second normalisation, over the centres. -/
def kas (D : Fin B → Fin 50 → Fin 8 → EReal) (b : Fin B) (k : Fin 50) (c : Fin 8) : EReal :=
  Ideal.div (D b k c) (∑ c' : Fin 8, D b k c')

/-! ## The two arrangements of the squared distance -/

/-- Over the reals: 1 + Σ (a − b)² = ((1 + Σ a²) − 2 Σ ab) + Σ b². -/
theorem sq_dist_expand {n : ℕ} (a b : Fin n → ℝ) :
    (1 : ℝ) + ∑ h, (a h - b h) * (a h - b h)
      = ((1 + ∑ h, a h * a h) - 2 * ∑ h, a h * b h) + ∑ h, b h * b h := by
  have e : ∀ h, (a h - b h) * (a h - b h) = a h * a h - 2 * (a h * b h) + b h * b h := fun h => by ring
  simp only [e, Finset.sum_add_distrib, Finset.sum_sub_distrib, ← Finset.mul_sum]
  ring

/-- The projection of real data is real. -/
theorem proj_isR {x : Fin B → Fin 512 → EReal} {msk : Fin 8 → Fin 512 → EReal} {w : Fin 512 → Fin 512 → EReal}
    (hx : ∀ b h, IsR (x b h)) (hm : ∀ c h, IsR (msk c h)) (hw : ∀ h d, IsR (w h d)) (b : Fin B) (c : Fin 8)
    (d : Fin 512) : IsR (proj x msk w b c d) :=
  IsR.sum _ _ fun h _ => ((hx b h).mul (hm c h)).mul (hw h d)

/-- For real P and μ the two arrangements of the score are equal. -/
theorem scoreK_eq_scoreR {P : Fin B → Fin 8 → Fin 512 → EReal} {mu : Fin 50 → Fin 8 → Fin 512 → EReal}
    (hP : ∀ b c h, IsR (P b c h)) (hmu : ∀ k c h, IsR (mu k c h)) : scoreK P mu = scoreR P mu := by
  funext b k c
  choose a ha using hP
  choose m hm using hmu
  unfold scoreK scoreR
  congr 1
  simp only [ha, hm, one_eq, two_eq, ← EReal.coe_mul, ← EReal.coe_sub, ← coe_sum, ← EReal.coe_add]
  exact congrArg _ (sq_dist_expand _ _).symm

/-! ## The whole arrays

The arrays are functions of multi-indices; `at2` / `at3` read one by coordinates. The arguments come in the order
x, μ, m, W (the order of the programs' argument arrays). -/

/-- A rank-2 array by coordinates. -/
def at2 {a b : ℕ} (x : (⟨2, ![a, b]⟩ : Shape).Idx → EReal) (i : Fin a) (j : Fin b) : EReal := x (ix2 i j)
/-- A rank-3 array by coordinates. -/
def at3 {a b c : ℕ} (x : (⟨3, ![a, b, c]⟩ : Shape).Idx → EReal) (i : Fin a) (j : Fin b) (k : Fin c) : EReal :=
  x (ix3 i j k)

/-- The projection P of B rows, as an array [B, 8, 512]. -/
def mulG (x : (⟨2, ![B, 512]⟩ : Shape).Idx → EReal) (msk : (⟨2, ![8, 512]⟩ : Shape).Idx → EReal)
    (w : (⟨2, ![512, 512]⟩ : Shape).Idx → EReal) : (⟨3, ![B, 8, 512]⟩ : Shape).Idx → EReal :=
  fun i => proj (at2 x) (at2 msk) (at2 w) (i 0) (i 1) (i 2)

/-- The normalised scores D of B rows, as an array [B, 50, 8], the squared distance as the sum of squared differences. -/
def distG (x : (⟨2, ![B, 512]⟩ : Shape).Idx → EReal) (mu : (⟨3, ![50, 8, 512]⟩ : Shape).Idx → EReal)
    (msk : (⟨2, ![8, 512]⟩ : Shape).Idx → EReal) (w : (⟨2, ![512, 512]⟩ : Shape).Idx → EReal) :
    (⟨3, ![B, 50, 8]⟩ : Shape).Idx → EReal :=
  fun i => dist (scoreR (proj (at2 x) (at2 msk) (at2 w)) (at3 mu)) (i 0) (i 1) (i 2)

/-- The twice-normalised scores A of B rows, as an array [B, 50, 8]. -/
def kasG (x : (⟨2, ![B, 512]⟩ : Shape).Idx → EReal) (mu : (⟨3, ![50, 8, 512]⟩ : Shape).Idx → EReal)
    (msk : (⟨2, ![8, 512]⟩ : Shape).Idx → EReal) (w : (⟨2, ![512, 512]⟩ : Shape).Idx → EReal) :
    (⟨3, ![B, 50, 8]⟩ : Shape).Idx → EReal :=
  fun i => kas (dist (scoreR (proj (at2 x) (at2 msk) (at2 w)) (at3 mu))) (i 0) (i 1) (i 2)

/-! ## The kernel's own layout and arrangement

The kernel keeps the centre axis before the class axis, [B, 8, 50], forms the squared distance in the expanded
arrangement, and takes its operands in the order x, m, W, μ. -/

/-- The normalised scores in the layout [B, 8, 50], expanded arrangement. -/
def distKT (x : (⟨2, ![B, 512]⟩ : Shape).Idx → EReal) (msk : (⟨2, ![8, 512]⟩ : Shape).Idx → EReal)
    (w : (⟨2, ![512, 512]⟩ : Shape).Idx → EReal) (mu : (⟨3, ![50, 8, 512]⟩ : Shape).Idx → EReal) :
    (⟨3, ![B, 8, 50]⟩ : Shape).Idx → EReal :=
  fun i => dist (scoreK (proj (at2 x) (at2 msk) (at2 w)) (at3 mu)) (i 0) (i 2) (i 1)

/-- The twice-normalised scores in the layout [B, 8, 50], expanded arrangement. -/
def kasKT (x : (⟨2, ![B, 512]⟩ : Shape).Idx → EReal) (msk : (⟨2, ![8, 512]⟩ : Shape).Idx → EReal)
    (w : (⟨2, ![512, 512]⟩ : Shape).Idx → EReal) (mu : (⟨3, ![50, 8, 512]⟩ : Shape).Idx → EReal) :
    (⟨3, ![B, 8, 50]⟩ : Shape).Idx → EReal :=
  fun i => kas (dist (scoreK (proj (at2 x) (at2 msk) (at2 w)) (at3 mu))) (i 0) (i 2) (i 1)

section real
variable {x : (⟨2, ![B, 512]⟩ : Shape).Idx → EReal} {msk : (⟨2, ![8, 512]⟩ : Shape).Idx → EReal}
  {w : (⟨2, ![512, 512]⟩ : Shape).Idx → EReal} {mu : (⟨3, ![50, 8, 512]⟩ : Shape).Idx → EReal}

/-- For real data the expanded arrangement of the score is the sum of squared differences. -/
theorem scoreK_proj_eq (hx : ∀ i, IsR (x i)) (hm : ∀ i, IsR (msk i)) (hw : ∀ i, IsR (w i)) (hmu : ∀ i, IsR (mu i)) :
    scoreK (proj (at2 x) (at2 msk) (at2 w)) (at3 mu) = scoreR (proj (at2 x) (at2 msk) (at2 w)) (at3 mu) :=
  scoreK_eq_scoreR (fun b c h => proj_isR (fun _ _ => hx _) (fun _ _ => hm _) (fun _ _ => hw _) b c h)
    (fun _ _ _ => hmu _)

/-- For real data the kernel's [B, 8, 50] array read at (b, c, k) is the reference's [B, 50, 8] array at (b, k, c). -/
theorem distKT_apply (hx : ∀ i, IsR (x i)) (hm : ∀ i, IsR (msk i)) (hw : ∀ i, IsR (w i)) (hmu : ∀ i, IsR (mu i))
    (b : Fin B) (c : Fin 8) (k : Fin 50) : distKT x msk w mu (ix3 b c k) = distG x mu msk w (ix3 b k c) := by
  unfold distKT distG
  rw [scoreK_proj_eq hx hm hw hmu]
  rfl

theorem kasKT_apply (hx : ∀ i, IsR (x i)) (hm : ∀ i, IsR (msk i)) (hw : ∀ i, IsR (w i)) (hmu : ∀ i, IsR (mu i))
    (b : Fin B) (c : Fin 8) (k : Fin 50) : kasKT x msk w mu (ix3 b c k) = kasG x mu msk w (ix3 b k c) := by
  unfold kasKT kasG
  rw [scoreK_proj_eq hx hm hw hmu]
  rfl

end real

end Cert.Spec

end
-- ==== Proof.KernelNorm.lean ====
/-
  The two normalisations over the eight centres, read at an entry over the extended reals.

  The body adds its eight score arrays one after the other, s₀ + s₁ + … + s₇, adds ε, and divides each score by the
  result; then it adds the eight quotients the same way and divides each quotient by that sum. Addition of extended reals
  is associative, so the chain of seven additions is the sum over the centres. The eighth score enters these steps in
  three parts (its matrix product, its array of squares, its slab of centres); only its value at an entry is used.
-/
import proofs.«173172_j47614007444072_2_alg».proof.Proof.KernelUniform
import proofs.«173172_j47614007444072_2_alg».proof.Proof.Spec

noncomputable section

namespace Cert.KNorm

open Idealize.ShloMosaic Idealize.ShloMosaic.ValueIdx Cert.KernelIdeal Cert.KernelIdeal.Gen

variable (s0 s1 s2 s3 s4 s5 s6 : FVec Ideal S256x50 .f32) (v266 : FVec Ideal S256x50 .f32)
  (v267 : FVec Ideal S256x512 .f32) (v270 : Vec Ideal S50x1x512 .f32)
  (S : Fin 256 → Fin 50 → Fin 8 → EReal)

/-- The first denominator at (p, k): the sum of the eight scores, plus ε. -/
theorem denom_apply (h0 : ∀ p k, s0 (ix2 p k) = S p k 0) (h1 : ∀ p k, s1 (ix2 p k) = S p k 1)
    (h2 : ∀ p k, s2 (ix2 p k) = S p k 2) (h3 : ∀ p k, s3 (ix2 p k) = S p k 3) (h4 : ∀ p k, s4 (ix2 p k) = S p k 4)
    (h5 : ∀ p k, s5 (ix2 p k) = S p k 5) (h6 : ∀ p k, s6 (ix2 p k) = S p k 6)
    (h7 : ∀ p k, k0_pay38 v266 v267 v270 (ix2 p k) = S p k 7) (p : Fin 256) (k : Fin 50) :
    k0_pay39 s0 s1 s2 s3 s4 s5 s6 v266 v267 v270 (ix2 p k) = (∑ c : Fin 8, S p k c) + Cert.Spec.eps := by
  rw [Fin.sum_univ_eight, ← h0 p k, ← h1 p k, ← h2 p k, ← h3 p k, ← h4 p k, ← h5 p k, ← h6 p k, ← h7 p k]
  rfl

/-- Each centre's first quotient at (p, k). -/
theorem dist_apply (h0 : ∀ p k, s0 (ix2 p k) = S p k 0) (h1 : ∀ p k, s1 (ix2 p k) = S p k 1)
    (h2 : ∀ p k, s2 (ix2 p k) = S p k 2) (h3 : ∀ p k, s3 (ix2 p k) = S p k 3) (h4 : ∀ p k, s4 (ix2 p k) = S p k 4)
    (h5 : ∀ p k, s5 (ix2 p k) = S p k 5) (h6 : ∀ p k, s6 (ix2 p k) = S p k 6)
    (h7 : ∀ p k, k0_pay38 v266 v267 v270 (ix2 p k) = S p k 7) (p : Fin 256) (k : Fin 50) :
    k0_pay40 s0 s1 s2 s3 s4 s5 s6 v266 v267 v270 (ix2 p k) = Cert.Spec.dist S p k 0
      ∧ k0_pay41 s0 s1 s2 s3 s4 s5 s6 v266 v267 v270 (ix2 p k) = Cert.Spec.dist S p k 1
      ∧ k0_pay42 s0 s1 s2 s3 s4 s5 s6 v266 v267 v270 (ix2 p k) = Cert.Spec.dist S p k 2
      ∧ k0_pay43 s0 s1 s2 s3 s4 s5 s6 v266 v267 v270 (ix2 p k) = Cert.Spec.dist S p k 3
      ∧ k0_pay44 s0 s1 s2 s3 s4 s5 s6 v266 v267 v270 (ix2 p k) = Cert.Spec.dist S p k 4
      ∧ k0_pay45 s0 s1 s2 s3 s4 s5 s6 v266 v267 v270 (ix2 p k) = Cert.Spec.dist S p k 5
      ∧ k0_pay46 s0 s1 s2 s3 s4 s5 s6 v266 v267 v270 (ix2 p k) = Cert.Spec.dist S p k 6
      ∧ k0_pay47 s0 s1 s2 s3 s4 s5 s6 v266 v267 v270 (ix2 p k) = Cert.Spec.dist S p k 7 := by
  have hd := denom_apply s0 s1 s2 s3 s4 s5 s6 v266 v267 v270 S h0 h1 h2 h3 h4 h5 h6 h7 p k
  unfold Cert.Spec.dist
  rw [← hd, ← h0 p k, ← h1 p k, ← h2 p k, ← h3 p k, ← h4 p k, ← h5 p k, ← h6 p k, ← h7 p k]
  exact ⟨rfl, rfl, rfl, rfl, rfl, rfl, rfl, rfl⟩

/-- The second denominator at (p, k): the sum of the eight first quotients. -/
theorem denom2_apply (h0 : ∀ p k, s0 (ix2 p k) = S p k 0) (h1 : ∀ p k, s1 (ix2 p k) = S p k 1)
    (h2 : ∀ p k, s2 (ix2 p k) = S p k 2) (h3 : ∀ p k, s3 (ix2 p k) = S p k 3) (h4 : ∀ p k, s4 (ix2 p k) = S p k 4)
    (h5 : ∀ p k, s5 (ix2 p k) = S p k 5) (h6 : ∀ p k, s6 (ix2 p k) = S p k 6)
    (h7 : ∀ p k, k0_pay38 v266 v267 v270 (ix2 p k) = S p k 7) (p : Fin 256) (k : Fin 50) :
    k0_pay48 s0 s1 s2 s3 s4 s5 s6 v266 v267 v270 (ix2 p k) = ∑ c : Fin 8, Cert.Spec.dist S p k c := by
  obtain ⟨d0, d1, d2, d3, d4, d5, d6, d7⟩ := dist_apply s0 s1 s2 s3 s4 s5 s6 v266 v267 v270 S h0 h1 h2 h3 h4 h5 h6 h7 p k
  rw [Fin.sum_univ_eight, ← d0, ← d1, ← d2, ← d3, ← d4, ← d5, ← d6, ← d7]
  rfl

/-- Each centre's second quotient at (p, k). -/
theorem kas_apply (h0 : ∀ p k, s0 (ix2 p k) = S p k 0) (h1 : ∀ p k, s1 (ix2 p k) = S p k 1)
    (h2 : ∀ p k, s2 (ix2 p k) = S p k 2) (h3 : ∀ p k, s3 (ix2 p k) = S p k 3) (h4 : ∀ p k, s4 (ix2 p k) = S p k 4)
    (h5 : ∀ p k, s5 (ix2 p k) = S p k 5) (h6 : ∀ p k, s6 (ix2 p k) = S p k 6)
    (h7 : ∀ p k, k0_pay38 v266 v267 v270 (ix2 p k) = S p k 7) (p : Fin 256) (k : Fin 50) :
    k0_pay49 s0 s1 s2 s3 s4 s5 s6 v266 v267 v270 (ix2 p k) = Cert.Spec.kas (Cert.Spec.dist S) p k 0
      ∧ k0_pay50 s0 s1 s2 s3 s4 s5 s6 v266 v267 v270 (ix2 p k) = Cert.Spec.kas (Cert.Spec.dist S) p k 1
      ∧ k0_pay51 s0 s1 s2 s3 s4 s5 s6 v266 v267 v270 (ix2 p k) = Cert.Spec.kas (Cert.Spec.dist S) p k 2
      ∧ k0_pay52 s0 s1 s2 s3 s4 s5 s6 v266 v267 v270 (ix2 p k) = Cert.Spec.kas (Cert.Spec.dist S) p k 3
      ∧ k0_pay53 s0 s1 s2 s3 s4 s5 s6 v266 v267 v270 (ix2 p k) = Cert.Spec.kas (Cert.Spec.dist S) p k 4
      ∧ k0_pay54 s0 s1 s2 s3 s4 s5 s6 v266 v267 v270 (ix2 p k) = Cert.Spec.kas (Cert.Spec.dist S) p k 5
      ∧ k0_pay55 s0 s1 s2 s3 s4 s5 s6 v266 v267 v270 (ix2 p k) = Cert.Spec.kas (Cert.Spec.dist S) p k 6
      ∧ k0_pay56 s0 s1 s2 s3 s4 s5 s6 v266 v267 v270 (ix2 p k) = Cert.Spec.kas (Cert.Spec.dist S) p k 7 := by
  have hd := denom2_apply s0 s1 s2 s3 s4 s5 s6 v266 v267 v270 S h0 h1 h2 h3 h4 h5 h6 h7 p k
  obtain ⟨d0, d1, d2, d3, d4, d5, d6, d7⟩ := dist_apply s0 s1 s2 s3 s4 s5 s6 v266 v267 v270 S h0 h1 h2 h3 h4 h5 h6 h7 p k
  unfold Cert.Spec.kas
  rw [← hd, ← d0, ← d1, ← d2, ← d3, ← d4, ← d5, ← d6, ← d7]
  exact ⟨rfl, rfl, rfl, rfl, rfl, rfl, rfl, rfl⟩

end Cert.KNorm

end
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.LibKeepdimsColumn.lean ====
/-
  A reusable lemma pair: a column kept as a trailing unit axis, read at an entry.

  A reduction over the last axis of an [a, b] array with the axis kept leaves a column: the [a] result is cast to
  [a, 1] and then broadcast back to [a, b'] to meet the array it came from. Read at an entry,

      cast [a] → [a, 1]        at (i, u) is the operand at i,
      broadcast [a, 1] → [a, b] at (p, c) is the operand at (p, 0):

  every entry of row p sees the row's one value. Generic in the extents and in the element type.
-/
import Idealize.ShloMosaic.Lib.Pipeline.Value
import Idealize.ShloMosaic.Lib.ValueIdx

noncomputable section

namespace Cert.KeepdimsColumn

open Idealize.ShloMosaic Idealize.ShloMosaic.ValueIdx

/-- An [a] array cast to [a, 1] reads, at (i, u), the operand at i. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An [a, 1] array broadcast to [a, b] reads, at (p, c), the operand's row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.KeepdimsColumn

end
-- ==== Proof.LibBlockSpread.lean ====
/-
  Layout operations of a pairwise kernel block read at an entry, generic in the extents and the element type.

  A kernel that combines every row p of one block with every row c of another spreads a per-row quantity over the
  other axis: a length-a vector becomes a column [a, 1] and is broadcast to [a, b] (entry (p, c) is the vector at p);
  a length-b vector becomes a row [1, b] and is broadcast to [a, b] (entry (p, c) is the vector at c). The quantities
  come from columns picked out of an [a, n] block (a slice of width one, its unit axis dropped) and from single
  lanes picked out of a short vector; blocks arrive with leading unit axes, which a shape cast drops.
-/
import Idealize.ShloMosaic.Lib.Pipeline.Value
import Idealize.ShloMosaic.Lib.ValueIdx
import Idealize.ShloMosaic.Lib.ValueLayout
import proofs.«173172_j47614007444072_2_alg».proof.Proof.LibKeepdimsColumn

noncomputable section

namespace Cert.BlockSpread

open Idealize.ShloMosaic Idealize.ShloMosaic.ValueIdx

variable {α : Type} {a b n : ℕ}

/-- A vector made a column and broadcast along the rows' other axis: entry (p, c) is the vector at p. -/
theorem col_spread (v : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ v h1) h2 (ix2 p c) = v (ix1 p) :=
  (Cert.KeepdimsColumn.broadcastTo_a1_ab_apply _ h2 p c).trans
    (Cert.KeepdimsColumn.shapeCast_a_a1_apply v h1 p 0)

/-- A vector made a row and broadcast down the rows: entry (p, c) is the vector at c. -/
theorem row_spread (w : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ w h1) h2 (ix2 p c) = w (ix1 c) :=
  (broadcastTo_1b_ab_apply _ h2 p c).trans (shapeCast_a_1a_apply w h1 0 c)

/-- An [a, 1] column with its unit axis dropped reads, at i, the column at (i, 0). -/
theorem shapeCast_a1_a_apply (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- A [1, 1, a] block with its two unit axes dropped reads, at i, the block at (0, 0, i). -/
theorem shapeCast_11a_a_apply (x : (⟨3, ![1, 1, a]⟩ : Shape).Idx → α)
    (h : (⟨3, ![1, 1, a]⟩ : Shape).ShapeCasts ⟨1, ![a]⟩) (i : Fin a) :
    shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    omega)

/-- Column `k` of an [a, n] block, as a vector: the slice of width one at offset `o = k`, its unit axis dropped. -/
theorem col_pick (o : ℕ) (X : (⟨2, ![a, n]⟩ : Shape).Idx → α)
    (hs : (⟨2, ![a, n]⟩ : Shape).Slices ![0, o] ⟨2, ![a, 1]⟩) (hc : (⟨2, ![a, 1]⟩ : Shape).ShapeCasts ⟨1, ![a]⟩)
    (p : Fin a) (k : Fin n) (hk : k.val = o) :
    shapeCast ⟨1, ![a]⟩ (extractStridedSlice ⟨2, ![a, 1]⟩ ![0, o] X hs) hc (ix1 p) = X (ix2 p k) :=
  (shapeCast_a1_a_apply _ hc p).trans (slice2_axis1_apply o X hs p 0 k (by rw [hk]; rfl))

/-- Lane `k` of a vector, as a scalar: the slice of length one at offset `o = k`, read at its one position. -/
theorem lane_pick (o : ℕ) (v : (⟨1, ![n]⟩ : Shape).Idx → α) (hs : (⟨1, ![n]⟩ : Shape).Slices ![o] ⟨1, ![1]⟩)
    (hp : ∀ d : Fin (⟨1, ![1]⟩ : Shape).rank, (![0] : Fin 1 → ℕ) d < (⟨1, ![1]⟩ : Shape).size d)
    (k : Fin n) (hk : k.val = o) :
    extractAt (s := ⟨1, ![1]⟩) ![0] (extractStridedSlice ⟨1, ![1]⟩ ![o] v hs) hp = v (ix1 k) := by
  unfold extractAt
  refine extractStridedSlice_apply _ v hs _ (ix1 k) fun d => ?_
  match d with
  | ⟨0, _⟩ => show k.val = o + 0; omega

end Cert.BlockSpread

end
-- ==== Proof.LibSlabLayout.lean ====
/-
  Reusable lemmas: an [a, b] array of rows and an [a, b, c] array of slabs read at an entry.

  A kernel that treats each of a blocks separately reduces along the middle axis of an [a, b, c] array (a sum over the b
  rows of every slab, leaving [a, c]) and along the rows of an [a, b] array (a sum or a running maximum over b, leaving
  [a]), and lays an [a, b] array along a new trailing axis ([a, b] → [a, b, 1] → [a, b, c]).  Each lemma reads one such
  operation at an entry written by its coordinates; the sums are over the extended reals.  Generic in the extents.
-/
import Idealize.ShloMosaic.Lib.Pipeline.Value
import Idealize.ShloMosaic.Lib.ValueIdx
import Idealize.ShloMosaic.PureOps.Ideal.Laws

noncomputable section

namespace Cert.SlabLayout

open Idealize.ShloMosaic Idealize.ShloMosaic.ValueIdx

variable {α : Type} {a b c : ℕ}

/-- An [a, b] array viewed [a, b, 1] reads, at (i, k, u), the operand at (i, k). -/
theorem shapeCast_ab_ab1_apply (x : (⟨2, ![a, b]⟩ : Shape).Idx → α)
    (h : (⟨2, ![a, b]⟩ : Shape).ShapeCasts ⟨3, ![a, b, 1]⟩) (i : Fin a) (k : Fin b) (u : Fin 1) :
    shapeCast ⟨3, ![a, b, 1]⟩ x h (ix3 i k u) = x (ix2 i k) :=
  shapeCast_apply x h _ _ (by
    have hu : u.val = 0 := by omega
    rw [Shape.rowMajor_val_three, Shape.rowMajor_val_two]
    show i.val * b + k.val = (i.val * b + k.val) * 1 + u.val
    rw [hu, Nat.mul_one, Nat.add_zero])

/-- An [a, b, 1] array broadcast to [a, b, c] reads, at (i, k, j), the operand at (i, k, 0). -/
theorem broadcastTo_ab1_abc_apply (x : (⟨3, ![a, b, 1]⟩ : Shape).Idx → α)
    (h : (⟨3, ![a, b, 1]⟩ : Shape).Broadcasts ⟨3, ![a, b, c]⟩) (i : Fin a) (k : Fin b) (j : Fin c) :
    broadcastTo ⟨3, ![a, b, c]⟩ x h (ix3 i k j) = x (ix3 i k (0 : Fin 1)) := by
  refine broadcastTo_apply x h (ix3 i k j) (ix3 i k (0 : Fin 1)) fun ax => ?_
  match ax with
  | ⟨0, _⟩ =>
    show i.val = if a = 1 then 0 else i.val
    split
    · have := i.isLt; omega
    · rfl
  | ⟨1, _⟩ =>
    show k.val = if b = 1 then 0 else k.val
    split
    · have := k.isLt; omega
    · rfl
  | ⟨2, _⟩ => rfl

/-- The source index of a reduction over the middle axis: the pair (i, j) with the row k inserted is (i, k, j). -/
theorem lift_mid (h : (⟨3, ![a, b, c]⟩ : Shape).Reduces [(1 : Fin 3)] ⟨2, ![a, c]⟩) (i : Fin a) (j : Fin c) (k : Fin b) :
    h.lift (ix2 i j) k = ix3 i k j := by
  funext d
  apply Fin.ext
  show h.liftVal (ix2 i j) k.val d = (ix3 i k j d).val
  unfold Shape.Reduces.liftVal
  match d with
  | ⟨0, _⟩ => rfl
  | ⟨1, _⟩ => rfl
  | ⟨2, _⟩ => rfl

/-- Over the extended reals a sum over the middle axis of an [a, b, c] array, from the zero accumulator, is at (i, j)
    the sum over the rows k of the entries (i, k, j). -/
theorem midSum_apply {φ : FTy} (src : FVec Ideal ⟨3, ![a, b, c]⟩ φ) (acc : BitVec φ.bits)
    (h : (⟨3, ![a, b, c]⟩ : Shape).Reduces [(1 : Fin 3)] ⟨2, ![a, c]⟩) (hφ : FKind.Formats φ)
    (hacc : acc = FKind.add.neutral φ hφ) (i : Fin a) (j : Fin c) :
    multiReduction .add [(1 : Fin 3)] ⟨2, ![a, c]⟩ src acc h hφ hacc (ix2 i j) = ∑ k : Fin b, src (ix3 i k j) := by
  refine (Ideal.multiReduction_add_single src acc h hφ hacc (ix2 i j)).trans ?_
  show ∑ k : Fin b, src (h.lift (ix2 i j) k) = _
  exact Finset.sum_congr rfl fun k _ => congrArg src (lift_mid h i j k)

/-- The source index of a reduction over the rows of an [a, b] array: i with the column k inserted is (i, k). -/
theorem lift_row (h : (⟨2, ![a, b]⟩ : Shape).Reduces [(1 : Fin 2)] ⟨1, ![a]⟩) (i : Fin a) (k : Fin b) :
    h.lift (ix1 i) k = ix2 i k := by
  funext d
  apply Fin.ext
  show h.liftVal (ix1 i) k.val d = (ix2 i k d).val
  unfold Shape.Reduces.liftVal
  match d with
  | ⟨0, _⟩ => rfl
  | ⟨1, _⟩ => rfl

/-- Over the extended reals a sum along the rows of an [a, b] array, from the zero accumulator, is at i the sum over k
    of the entries (i, k). -/
theorem rowSum_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.add.neutral φ hφ) (i : Fin a) :
    multiReduction .add [(1 : Fin 2)] ⟨1, ![a]⟩ src acc h hφ hacc (ix1 i) = ∑ k : Fin b, src (ix2 i k) := by
  refine (Ideal.multiReduction_add_single src acc h hφ hacc (ix1 i)).trans ?_
  show ∑ k : Fin b, src (h.lift (ix1 i) k) = _
  exact Finset.sum_congr rfl fun k _ => congrArg src (lift_row h i k)

/-- Over the extended reals a running maximum along the rows of an [a, b] array is at i the fold of max, from the
    accumulator's value, over the entries (i, k). -/
theorem rowMax_apply {φ : FTy} (src : FVec Ideal ⟨2, ![a, b]⟩ φ) (acc : BitVec φ.bits)
    (h : (⟨2, ![a, b]⟩ : Shape).Reduces [(1 : Fin 2)] ⟨1, ![a]⟩) (hφ : FKind.Formats φ)
    (hacc : acc = FKind.maximumf.neutral φ hφ) (i : Fin a) :
    multiReduction .maximumf [(1 : Fin 2)] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  have e : (src ∘ h.lift (ix1 i)) = fun k => src (ix2 i k) := funext fun k => congrArg src (lift_row h i k)
  show (Finset.univ : Finset (Fin b)).fold max (Ideal.ofBits φ acc) (src ∘ h.lift (ix1 i)) = _
  rw [e]
  rfl

end Cert.SlabLayout

end
-- ==== Proof.LibMidUnitAxis.lean ====
/-
  A reusable lemma pair: a unit axis in the MIDDLE of a rank-3 array, dropped or put back by a shape cast.

  A kernel that keeps a per-centre (or per-head) axis in the middle of its blocks, [a, 8, b], loads and stores one centre's
  slab as [a, 1, b] and works on it as [a, b]. Read at an entry,

      cast [a, 1, b] → [a, b]   at (p, d)    is the operand at (p, 0, d),
      cast [a, b] → [a, 1, b]   at (p, u, d) is the operand at (p, d):

  the row-major position is unchanged because the middle extent is one. Generic in the extents and the element type;
  imports only the library.
-/
import Idealize.ShloMosaic.Lib.Pipeline.Value
import Idealize.ShloMosaic.Lib.ValueIdx

noncomputable section

namespace Cert.MidUnitAxis

open Idealize.ShloMosaic Idealize.ShloMosaic.ValueIdx

/-- An [a, 1, b] array cast to [a, b] reads, at (p, d), the operand at (p, 0, d). -/
theorem cast_a1b_ab {α : Type} {a b : ℕ} (x : (⟨3, ![a, 1, b]⟩ : Shape).Idx → α)
    (h : (⟨3, ![a, 1, b]⟩ : Shape).ShapeCasts ⟨2, ![a, b]⟩) (p : Fin a) (d : Fin b) :
    shapeCast ⟨2, ![a, b]⟩ x h (ix2 p d) = x (ix3 p (0 : Fin 1) d) :=
  shapeCast_apply x h _ _ (by
    rw [Shape.rowMajor_val_three, Shape.rowMajor_val_two]
    show (p.val * 1 + 0) * b + d.val = p.val * b + d.val
    rw [Nat.mul_one, Nat.add_zero])

/-- An [a, b] array cast to [a, 1, b] reads, at (p, u, d), the operand at (p, d). -/
theorem cast_ab_a1b {α : Type} {a b : ℕ} (x : (⟨2, ![a, b]⟩ : Shape).Idx → α)
    (h : (⟨2, ![a, b]⟩ : Shape).ShapeCasts ⟨3, ![a, 1, b]⟩) (p : Fin a) (u : Fin 1) (d : Fin b) :
    shapeCast ⟨3, ![a, 1, b]⟩ x h (ix3 p u d) = x (ix2 p d) :=
  shapeCast_apply x h _ _ (by
    have hu : u.val = 0 := by omega
    rw [Shape.rowMajor_val_three, Shape.rowMajor_val_two]
    show p.val * b + d.val = (p.val * 1 + u.val) * b + d.val
    rw [hu, Nat.mul_one, Nat.add_zero])

end Cert.MidUnitAxis

end
-- ==== Proof.KernelEntries.lean ====
/-
  The two steps of a centre, read at an entry over the extended reals.

  Projection:  P_c[p, d] = Σ_h (x[p, h] · m_c[h]) · W[h, d]  — the matrix unit's product into zeros is the plain sum, and the
  change of float format on its operands is the identity.
  Score:       s_c[p, k] = 1 / (((1 + Σ_h P_c[p, h]²) − 2 · Σ_h P_c[p, h] · μ[k, c, h]) + Σ_h μ_c[k, h]²) — the row sums as
  finite sums, the column of row norms spread along k, the row of centre norms spread along p, and the product of P_c with
  the transposed slab c of μ as the sum over h.
-/
import proofs.«173172_j47614007444072_2_alg».proof.Proof.KernelUniform
import proofs.«173172_j47614007444072_2_alg».proof.Proof.Spec
import proofs.«173172_j47614007444072_2_alg».proof.Proof.LibMatmulNN
import proofs.«173172_j47614007444072_2_alg».proof.Proof.LibBlockSpread
import proofs.«173172_j47614007444072_2_alg».proof.Proof.LibSlabLayout
import proofs.«173172_j47614007444072_2_alg».proof.Proof.LibMidUnitAxis
import Idealize.ShloMosaic.Lib.ValueLayout

noncomputable section

namespace Cert.KEntries

open Idealize.ShloMosaic Idealize.ShloMosaic.ValueIdx Cert.KernelIdeal Cert.KernelIdeal.Gen Cert.KUniform Cert.MidUnitAxis

/-! ## The projection slab -/

/-- The mask row, taken as a vector and spread down the rows, reads at (p, h) the row's entry h. -/
theorem maskRow_apply (mrow : Vec Ideal S1x512 .f32) (p : Fin 256) (h : Fin 512) :
    broadcastTo S256x512 (shapeCast S1x512 (shapeCast S512 mrow shapeCasts_S1x512_S512) shapeCasts_S512_S1x512)
      broadcasts_S1x512_S256x512 (ix2 p h) = mrow (ix2 (0 : Fin 1) h) :=
  (Cert.BlockSpread.row_spread _ shapeCasts_S512_S1x512 broadcasts_S1x512_S256x512 p h).trans
    (shapeCast_1a_a_apply mrow shapeCasts_S1x512_S512 h)

/-- One centre's projection at (p, d). -/
theorem projBlk_apply (x : Vec Ideal S256x512 .f32) (w : Vec Ideal S512x512 .f32) (mrow : Vec Ideal S1x512 .f32)
    (p : Fin 256) (d : Fin 512) :
    projBlk (F := Ideal) x w mrow (ix2 p d)
      = ∑ h : Fin 512, (x (ix2 p h) * mrow (ix2 (0 : Fin 1) h)) * w (ix2 h d) := by
  unfold projBlk
  refine (Cert.MatmulNN.matmul_zero_apply _ rfl none _ _ p d).trans (Finset.sum_congr rfl fun h _ => ?_)
  exact congrArg₂ (· * ·) (congrArg₂ (· * ·) rfl (maskRow_apply mrow p h)) rfl

/-! ## The score -/

/-- One centre's score at (p, k): `c` is the centre whose slab of μ the matrix product reads. -/
theorem scoreBlk_apply (o : ℕ) (c : Fin 8) (hc : c.val = o) (hsl : S50x8x512.Slices ![0, o, 0] S50x1x512)
    (mu : Vec Ideal S50x8x512 .f32) (mulc : Vec Ideal S256x1x512 .f32) (muc : Vec Ideal S50x1x512 .f32)
    (p : Fin 256) (k : Fin 50) :
    scoreBlk (F := Ideal) ![0, o, 0] hsl mu mulc muc (ix2 p k)
      = Ideal.div Cert.Spec.one
          (((Cert.Spec.one + ∑ h : Fin 512, mulc (ix3 p (0 : Fin 1) h) * mulc (ix3 p (0 : Fin 1) h))
              - Cert.Spec.two * ∑ h : Fin 512, mulc (ix3 p (0 : Fin 1) h) * mu (ix3 k c h))
            + ∑ h : Fin 512, muc (ix3 k (0 : Fin 1) h) * muc (ix3 k (0 : Fin 1) h)) := by
  unfold scoreBlk
  refine congrArg₂ Ideal.div rfl (congrArg₂ (· + ·) (congrArg₂ (· - ·) ?_ ?_) ?_)
  · -- the column of 1 + row norms, spread along k
    refine (Cert.KeepdimsColumn.broadcastTo_a1_ab_apply _ broadcasts_S256x1_S256x50 p k).trans ?_
    refine congrArg₂ (· + ·) rfl ?_
    refine (Cert.KeepdimsColumn.shapeCast_a_a1_apply _ shapeCasts_S256_S256x1 p 0).trans ?_
    refine (Cert.SlabLayout.rowSum_apply _ _ reduces_S256x512_S256 _ _ p).trans (Finset.sum_congr rfl fun h _ => ?_)
    exact congrArg₂ (· * ·) (cast_a1b_ab mulc shapeCasts_S256x1x512_S256x512 p h)
      (cast_a1b_ab mulc shapeCasts_S256x1x512_S256x512 p h)
  · -- twice the product with the transposed slab of centres
    refine congrArg₂ (· * ·) rfl ?_
    refine (Cert.MatmulNN.matmul_zero_apply _ rfl none _ _ p k).trans (Finset.sum_congr rfl fun h _ => ?_)
    refine congrArg₂ (· * ·) (cast_a1b_ab mulc shapeCasts_S256x1x512_S256x512 p h) ?_
    refine (transpose_ix2_apply _ transposes_S50x512_p1_0_S512x50 h k).trans ?_
    refine (cast_a1b_ab _ shapeCasts_S50x1x512_S50x512 k h).trans ?_
    exact slice3_axis1_apply o _ hsl k (0 : Fin 1) h c (by rw [hc]; rfl)
  · -- the row of centre norms, spread along p
    refine (Cert.BlockSpread.row_spread _ shapeCasts_S50_S1x50 broadcasts_S1x50_S256x50 p k).trans ?_
    refine (Cert.SlabLayout.rowSum_apply _ _ reduces_S50x512_S50 _ _ k).trans (Finset.sum_congr rfl fun h _ => ?_)
    exact congrArg₂ (· * ·) (cast_a1b_ab muc shapeCasts_S50x1x512_S50x512 k h)
      (cast_a1b_ab muc shapeCasts_S50x1x512_S50x512 k h)

end Cert.KEntries

end
-- ==== Proof.LibIndexExt.lean ====
/-
  Two multi-indices of a literal-rank shape are equal as soon as their coordinates are equal as natural numbers:
  the form in which an index computed by a chain of layout operations is compared with one written by coordinates.
-/
import Idealize.ShloMosaic.Lib.ValueIdx

namespace Cert.IndexExt

open Idealize.ShloMosaic

/-- Rank 1. -/
theorem ext1 {n0 : Nat} {i j : (⟨1, ![n0]⟩ : Shape).Idx} (h0 : (i 0).val = (j 0).val) : i = j :=
  funext fun a => Fin.ext (by match a with | ⟨0, _⟩ => exact h0)

/-- Rank 2. -/
theorem ext2 {n0 n1 : Nat} {i j : (⟨2, ![n0, n1]⟩ : Shape).Idx} (h0 : (i 0).val = (j 0).val)
    (h1 : (i 1).val = (j 1).val) : i = j :=
  funext fun a => Fin.ext (by match a with | ⟨0, _⟩ => exact h0 | ⟨1, _⟩ => exact h1)

/-- Rank 3. -/
theorem ext3 {n0 n1 n2 : Nat} {i j : (⟨3, ![n0, n1, n2]⟩ : Shape).Idx} (h0 : (i 0).val = (j 0).val)
    (h1 : (i 1).val = (j 1).val) (h2 : (i 2).val = (j 2).val) : i = j :=
  funext fun a => Fin.ext (by match a with | ⟨0, _⟩ => exact h0 | ⟨1, _⟩ => exact h1 | ⟨2, _⟩ => exact h2)

/-- Rank 4. -/
theorem ext4 {n0 n1 n2 n3 : Nat} {i j : (⟨4, ![n0, n1, n2, n3]⟩ : Shape).Idx} (h0 : (i 0).val = (j 0).val)
    (h1 : (i 1).val = (j 1).val) (h2 : (i 2).val = (j 2).val) (h3 : (i 3).val = (j 3).val) : i = j :=
  funext fun a => Fin.ext (by
    match a with | ⟨0, _⟩ => exact h0 | ⟨1, _⟩ => exact h1 | ⟨2, _⟩ => exact h2 | ⟨3, _⟩ => exact h3)

end Cert.IndexExt
-- ==== Proof.SlabIndex.lean ====
/-
  Where a centre's slab sits in a block.

  The blocks keep the centre axis in the middle: [a, 8, n]. Centre c's slab is the rectangle of offsets (0, c, 0) and
  extents (a, 1, n); its local index (p, u, d) is the block's index (p, c, d). A mask row is the rectangle (c, 0) of extents
  (1, n) in [8, n]. A [256, n] array stored as such a slab is the block of a function G at centre c as soon as it agrees
  with G entry by entry.
-/
import proofs.«173172_j47614007444072_2_alg».proof.Proof.KernelEntries
import proofs.«173172_j47614007444072_2_alg».proof.Proof.LibIndexExt

noncomputable section

namespace Cert.SlabIdx

open Idealize.ShloMosaic Idealize.ShloMosaic.ValueIdx

/-- The slab's local index (p, u, d) placed in the block: (p, c, d). -/
theorem emb_slab {a n : ℕ} (o : ℕ) (c : Fin 8) (hc : c.val = o)
    (inb : ∀ ax, (![0, o, 0] : Fin 3 → ℕ) ax + (![a, 1, n] : Fin 3 → ℕ) ax ≤ (⟨3, ![a, 8, n]⟩ : Shape).size ax)
    (p : Fin a) (u : Fin 1) (d : Fin n) :
    (Rect.unit (s := ⟨3, ![a, 8, n]⟩) ![0, o, 0] ![a, 1, n] inb).emb (ix3 p u d) = ix3 p c d :=
  Cert.IndexExt.ext3 (by show 0 + 1 * p.val = p.val; omega)
    (by have hu : u.val = 0 := by omega
        show o + 1 * u.val = c.val; omega)
    (by show 0 + 1 * d.val = d.val; omega)

/-- The same for a load through the slab's rectangle. -/
theorem ld_slab {Val : EltTy → Type} {e : EltTy} {a n : ℕ} (o : ℕ) (c : Fin 8) (hc : c.val = o)
    (inb : ∀ ax, (![0, o, 0] : Fin 3 → ℕ) ax + (![a, 1, n] : Fin 3 → ℕ) ax ≤ (⟨3, ![a, 8, n]⟩ : Shape).size ax)
    (X : (⟨3, ![a, 8, n]⟩ : Shape).Idx → Val e) (p : Fin a) (u : Fin 1) (d : Fin n) :
    View.ld X (Rect.unit (s := ⟨3, ![a, 8, n]⟩) ![0, o, 0] ![a, 1, n] inb) (ix3 p u d) = X (ix3 p c d) :=
  congrArg X (emb_slab o c hc inb p u d)

/-- A load of mask row c reads, at (u, h), the mask at (c, h). -/
theorem ld_row {Val : EltTy → Type} {e : EltTy} {n : ℕ} (o : ℕ) (c : Fin 8) (hc : c.val = o)
    (inb : ∀ ax, (![o, 0] : Fin 2 → ℕ) ax + (![1, n] : Fin 2 → ℕ) ax ≤ (⟨2, ![8, n]⟩ : Shape).size ax)
    (X : (⟨2, ![8, n]⟩ : Shape).Idx → Val e) (u : Fin 1) (h : Fin n) :
    View.ld X (Rect.unit (s := ⟨2, ![8, n]⟩) ![o, 0] ![1, n] inb) (ix2 u h) = X (ix2 c h) :=
  congrArg X (Cert.IndexExt.ext2
    (by have hu : u.val = 0 := by omega
        show o + 1 * u.val = c.val; omega)
    (by show 0 + 1 * h.val = h.val; omega))

/-- A [256, n] array stored as centre c's slab is the block of G there, when it agrees with G entry by entry. -/
theorem slab_piece {α : Type} {n : ℕ} (o : ℕ) (c : Fin 8) (hc : c.val = o)
    (inb : ∀ ax, (![0, o, 0] : Fin 3 → ℕ) ax + (![256, 1, n] : Fin 3 → ℕ) ax ≤ (⟨3, ![256, 8, n]⟩ : Shape).size ax)
    (hcast : (⟨2, ![256, n]⟩ : Shape).ShapeCasts ⟨3, ![256, 1, n]⟩) (v : (⟨2, ![256, n]⟩ : Shape).Idx → α)
    (G : (⟨3, ![256, 8, n]⟩ : Shape).Idx → α) (hv : ∀ p d, v (ix2 p d) = G (ix3 p c d))
    (x : (⟨3, ![256, 1, n]⟩ : Shape).Idx) :
    shapeCast ⟨3, ![256, 1, n]⟩ v hcast x
      = G ((Rect.unit (s := ⟨3, ![256, 8, n]⟩) ![0, o, 0] ![256, 1, n] inb).emb x) := by
  obtain ⟨p, u, d, rfl⟩ : ∃ (p : Fin 256) (u : Fin 1) (d : Fin n), x = ix3 p u d := ⟨x 0, x 1, x 2, eq_ix3 x⟩
  rw [emb_slab o c hc inb p u d]
  exact (Cert.MidUnitAxis.cast_ab_a1b v hcast p u d).trans (hv p d)

end Cert.SlabIdx

end
-- ==== Proof.KernelPieces.lean ====
/-
  The eight stored slabs of each normalised output are the blocks of one function.

  For eight score arrays that agree entry by entry with a function S of (row, class, centre), the slab the body stores for
  centre c of the first quotient is the block (·, c, ·) of D[p, k, c] = S[p, k, c] / (Σ_c' S[p, k, c'] + ε) in the layout
  [256, 8, 50], and the slab of the second quotient is the block of A = D / Σ_c' D.
-/
import proofs.«173172_j47614007444072_2_alg».proof.Proof.KernelNorm
import proofs.«173172_j47614007444072_2_alg».proof.Proof.SlabIndex

noncomputable section

namespace Cert.KPieces

open Idealize.ShloMosaic Idealize.ShloMosaic.ValueIdx Cert.KernelIdeal Cert.KernelIdeal.Gen

/-- The first quotient in the layout [256, 8, 50]. -/
def distBlk (S : Fin 256 → Fin 50 → Fin 8 → EReal) : S256x8x50.Idx → EReal :=
  fun i => Cert.Spec.dist S (i 0) (i 2) (i 1)

/-- The second quotient in the layout [256, 8, 50]. -/
def kasBlk (S : Fin 256 → Fin 50 → Fin 8 → EReal) : S256x8x50.Idx → EReal :=
  fun i => Cert.Spec.kas (Cert.Spec.dist S) (i 0) (i 2) (i 1)

variable (s0 s1 s2 s3 s4 s5 s6 : FVec Ideal S256x50 .f32) (v266 : FVec Ideal S256x50 .f32)
  (v267 : FVec Ideal S256x512 .f32) (v270 : Vec Ideal S50x1x512 .f32)
  (S : Fin 256 → Fin 50 → Fin 8 → EReal)

/-- The stored slabs of the first quotient, last stored first. -/
theorem dist_pieces (h0 : ∀ p k, s0 (ix2 p k) = S p k 0) (h1 : ∀ p k, s1 (ix2 p k) = S p k 1)
    (h2 : ∀ p k, s2 (ix2 p k) = S p k 2) (h3 : ∀ p k, s3 (ix2 p k) = S p k 3) (h4 : ∀ p k, s4 (ix2 p k) = S p k 4)
    (h5 : ∀ p k, s5 (ix2 p k) = S p k 5) (h6 : ∀ p k, s6 (ix2 p k) = S p k 6)
    (h7 : ∀ p k, k0_pay38 v266 v267 v270 (ix2 p k) = S p k 7) :
    ∀ pc ∈ ([⟨Rect.unit (s := S256x8x50) ![0, 7, 0] S256x1x50.size inb_S256x8x50_S256x1x50_0_7_0, k0_pay6 (k0_pay47 s0 s1 s2 s3 s4 s5 s6 v266 v267 v270)⟩,
        ⟨Rect.unit (s := S256x8x50) ![0, 6, 0] S256x1x50.size inb_S256x8x50_S256x1x50_0_6_0, k0_pay4 (k0_pay46 s0 s1 s2 s3 s4 s5 s6 v266 v267 v270)⟩,
        ⟨Rect.unit (s := S256x8x50) ![0, 5, 0] S256x1x50.size inb_S256x8x50_S256x1x50_0_5_0, k0_pay2 (k0_pay45 s0 s1 s2 s3 s4 s5 s6 v266 v267 v270)⟩,
        ⟨Rect.unit (s := S256x8x50) ![0, 4, 0] S256x1x50.size inb_S256x8x50_S256x1x50_0_4_0, k0_pay65 (k0_pay44 s0 s1 s2 s3 s4 s5 s6 v266 v267 v270)⟩,
        ⟨Rect.unit (s := S256x8x50) ![0, 3, 0] S256x1x50.size inb_S256x8x50_S256x1x50_0_3_0, k0_pay63 (k0_pay43 s0 s1 s2 s3 s4 s5 s6 v266 v267 v270)⟩,
        ⟨Rect.unit (s := S256x8x50) ![0, 2, 0] S256x1x50.size inb_S256x8x50_S256x1x50_0_2_0, k0_pay61 (k0_pay42 s0 s1 s2 s3 s4 s5 s6 v266 v267 v270)⟩,
        ⟨Rect.unit (s := S256x8x50) ![0, 1, 0] S256x1x50.size inb_S256x8x50_S256x1x50_0_1_0, k0_pay59 (k0_pay41 s0 s1 s2 s3 s4 s5 s6 v266 v267 v270)⟩,
        ⟨Rect.unit (s := S256x8x50) ![0, 0, 0] S256x1x50.size inb_S256x8x50_S256x1x50_0_0_0, k0_pay57 (k0_pay40 s0 s1 s2 s3 s4 s5 s6 v266 v267 v270)⟩] :
        List (View.Piece (Elt Ideal) S256x8x50 .f32)),
      ∀ x : pc.1.shape.Idx, pc.2 x = distBlk S (pc.1.emb x) := by
  intro pc hpc x
  have D := Cert.KNorm.dist_apply s0 s1 s2 s3 s4 s5 s6 v266 v267 v270 S h0 h1 h2 h3 h4 h5 h6 h7
  simp only [List.mem_cons, List.mem_nil_iff, or_false] at hpc
  rcases hpc with rfl | rfl | rfl | rfl | rfl | rfl | rfl | rfl
  · exact Cert.SlabIdx.slab_piece 7 7 rfl inb_S256x8x50_S256x1x50_0_7_0 shapeCasts_S256x50_S256x1x50 _ (distBlk S) (fun p k => (D p k).2.2.2.2.2.2.2) x
  · exact Cert.SlabIdx.slab_piece 6 6 rfl inb_S256x8x50_S256x1x50_0_6_0 shapeCasts_S256x50_S256x1x50 _ (distBlk S) (fun p k => (D p k).2.2.2.2.2.2.1) x
  · exact Cert.SlabIdx.slab_piece 5 5 rfl inb_S256x8x50_S256x1x50_0_5_0 shapeCasts_S256x50_S256x1x50 _ (distBlk S) (fun p k => (D p k).2.2.2.2.2.1) x
  · exact Cert.SlabIdx.slab_piece 4 4 rfl inb_S256x8x50_S256x1x50_0_4_0 shapeCasts_S256x50_S256x1x50 _ (distBlk S) (fun p k => (D p k).2.2.2.2.1) x
  · exact Cert.SlabIdx.slab_piece 3 3 rfl inb_S256x8x50_S256x1x50_0_3_0 shapeCasts_S256x50_S256x1x50 _ (distBlk S) (fun p k => (D p k).2.2.2.1) x
  · exact Cert.SlabIdx.slab_piece 2 2 rfl inb_S256x8x50_S256x1x50_0_2_0 shapeCasts_S256x50_S256x1x50 _ (distBlk S) (fun p k => (D p k).2.2.1) x
  · exact Cert.SlabIdx.slab_piece 1 1 rfl inb_S256x8x50_S256x1x50_0_1_0 shapeCasts_S256x50_S256x1x50 _ (distBlk S) (fun p k => (D p k).2.1) x
  · exact Cert.SlabIdx.slab_piece 0 0 rfl inb_S256x8x50_S256x1x50_0_0_0 shapeCasts_S256x50_S256x1x50 _ (distBlk S) (fun p k => (D p k).1) x

/-- The stored slabs of the second quotient, last stored first. -/
theorem kas_pieces (h0 : ∀ p k, s0 (ix2 p k) = S p k 0) (h1 : ∀ p k, s1 (ix2 p k) = S p k 1)
    (h2 : ∀ p k, s2 (ix2 p k) = S p k 2) (h3 : ∀ p k, s3 (ix2 p k) = S p k 3) (h4 : ∀ p k, s4 (ix2 p k) = S p k 4)
    (h5 : ∀ p k, s5 (ix2 p k) = S p k 5) (h6 : ∀ p k, s6 (ix2 p k) = S p k 6)
    (h7 : ∀ p k, k0_pay38 v266 v267 v270 (ix2 p k) = S p k 7) :
    ∀ pc ∈ ([⟨Rect.unit (s := S256x8x50) ![0, 7, 0] S256x1x50.size inb_S256x8x50_S256x1x50_0_7_0, k0_pay7 (k0_pay56 s0 s1 s2 s3 s4 s5 s6 v266 v267 v270)⟩,
        ⟨Rect.unit (s := S256x8x50) ![0, 6, 0] S256x1x50.size inb_S256x8x50_S256x1x50_0_6_0, k0_pay5 (k0_pay55 s0 s1 s2 s3 s4 s5 s6 v266 v267 v270)⟩,
        ⟨Rect.unit (s := S256x8x50) ![0, 5, 0] S256x1x50.size inb_S256x8x50_S256x1x50_0_5_0, k0_pay3 (k0_pay54 s0 s1 s2 s3 s4 s5 s6 v266 v267 v270)⟩,
        ⟨Rect.unit (s := S256x8x50) ![0, 4, 0] S256x1x50.size inb_S256x8x50_S256x1x50_0_4_0, k0_pay1 (k0_pay53 s0 s1 s2 s3 s4 s5 s6 v266 v267 v270)⟩,
        ⟨Rect.unit (s := S256x8x50) ![0, 3, 0] S256x1x50.size inb_S256x8x50_S256x1x50_0_3_0, k0_pay64 (k0_pay52 s0 s1 s2 s3 s4 s5 s6 v266 v267 v270)⟩,
        ⟨Rect.unit (s := S256x8x50) ![0, 2, 0] S256x1x50.size inb_S256x8x50_S256x1x50_0_2_0, k0_pay62 (k0_pay51 s0 s1 s2 s3 s4 s5 s6 v266 v267 v270)⟩,
        ⟨Rect.unit (s := S256x8x50) ![0, 1, 0] S256x1x50.size inb_S256x8x50_S256x1x50_0_1_0, k0_pay60 (k0_pay50 s0 s1 s2 s3 s4 s5 s6 v266 v267 v270)⟩,
        ⟨Rect.unit (s := S256x8x50) ![0, 0, 0] S256x1x50.size inb_S256x8x50_S256x1x50_0_0_0, k0_pay58 (k0_pay49 s0 s1 s2 s3 s4 s5 s6 v266 v267 v270)⟩] :
        List (View.Piece (Elt Ideal) S256x8x50 .f32)),
      ∀ x : pc.1.shape.Idx, pc.2 x = kasBlk S (pc.1.emb x) := by
  intro pc hpc x
  have D := Cert.KNorm.kas_apply s0 s1 s2 s3 s4 s5 s6 v266 v267 v270 S h0 h1 h2 h3 h4 h5 h6 h7
  simp only [List.mem_cons, List.mem_nil_iff, or_false] at hpc
  rcases hpc with rfl | rfl | rfl | rfl | rfl | rfl | rfl | rfl
  · exact Cert.SlabIdx.slab_piece 7 7 rfl inb_S256x8x50_S256x1x50_0_7_0 shapeCasts_S256x50_S256x1x50 _ (kasBlk S) (fun p k => (D p k).2.2.2.2.2.2.2) x
  · exact Cert.SlabIdx.slab_piece 6 6 rfl inb_S256x8x50_S256x1x50_0_6_0 shapeCasts_S256x50_S256x1x50 _ (kasBlk S) (fun p k => (D p k).2.2.2.2.2.2.1) x
  · exact Cert.SlabIdx.slab_piece 5 5 rfl inb_S256x8x50_S256x1x50_0_5_0 shapeCasts_S256x50_S256x1x50 _ (kasBlk S) (fun p k => (D p k).2.2.2.2.2.1) x
  · exact Cert.SlabIdx.slab_piece 4 4 rfl inb_S256x8x50_S256x1x50_0_4_0 shapeCasts_S256x50_S256x1x50 _ (kasBlk S) (fun p k => (D p k).2.2.2.2.1) x
  · exact Cert.SlabIdx.slab_piece 3 3 rfl inb_S256x8x50_S256x1x50_0_3_0 shapeCasts_S256x50_S256x1x50 _ (kasBlk S) (fun p k => (D p k).2.2.2.1) x
  · exact Cert.SlabIdx.slab_piece 2 2 rfl inb_S256x8x50_S256x1x50_0_2_0 shapeCasts_S256x50_S256x1x50 _ (kasBlk S) (fun p k => (D p k).2.2.1) x
  · exact Cert.SlabIdx.slab_piece 1 1 rfl inb_S256x8x50_S256x1x50_0_1_0 shapeCasts_S256x50_S256x1x50 _ (kasBlk S) (fun p k => (D p k).2.1) x
  · exact Cert.SlabIdx.slab_piece 0 0 rfl inb_S256x8x50_S256x1x50_0_0_0 shapeCasts_S256x50_S256x1x50 _ (kasBlk S) (fun p k => (D p k).1) x

end Cert.KPieces

end
-- ==== Proof.KernelBlock.lean ====
/-
  What one grid point leaves in the three outputs' staging buffers, as functions of the point's input blocks.

  The body fills each output block slab by slab, one slab per centre. The projection's slabs are the blocks of
  P[p, c, d] = Σ_h (x[p, h] · m[c, h]) · W[h, d]. Each score reads its centre's slab of P back out of the buffer just
  filled — what it reads is P there, because the eight stored slabs cover the block — together with its slab of μ, so the
  eight scores agree entry by entry with s[p, k, c] in the expanded arrangement; the slabs of the two normalised outputs are
  then the blocks of D and A in the layout [256, 8, 50].
-/
import proofs.«173172_j47614007444072_2_alg».proof.Proof.Gen.KernelIdeal.Frame
import proofs.«173172_j47614007444072_2_alg».proof.Proof.KernelPieces

set_option maxRecDepth 16384

noncomputable section

namespace Cert.KBlock

open Idealize.ShloMosaic Idealize.ShloMosaic.TcCoe Idealize.ShloMosaic.Tactic
open Idealize.SL Idealize.SL.Sem
open Idealize.ShloMosaic.ValueIdx Cert.KernelIdeal Cert.KernelIdeal.Gen Cert.KUniform

theorem hz2 : (![0, 0] : Fin 2 → Nat) = fun _ => 0 := funext fun a => by fin_cases a <;> rfl
theorem hz3 : (![0, 0, 0] : Fin 3 → Nat) = fun _ => 0 := funext fun a => by fin_cases a <;> rfl

/-- The block's scores s[p, k, c], expanded arrangement, from the input blocks x, m, W, μ. -/
def blkS (x0 : Vec Ideal S256x512 .f32) (x1 : Vec Ideal S8x512 .f32) (x2 : Vec Ideal S512x512 .f32)
    (x3 : Vec Ideal S50x8x512 .f32) : Fin 256 → Fin 50 → Fin 8 → EReal :=
  Cert.Spec.scoreK (Cert.Spec.proj (Cert.Spec.at2 x0) (Cert.Spec.at2 x1) (Cert.Spec.at2 x2)) (Cert.Spec.at3 x3)

/-! ## The projection's slabs -/

/-- Centre c's stored projection slab is the block of P at centre c. -/
theorem proj_piece (o : ℕ) (c : Fin 8) (hc : c.val = o)
    (inb4 : ∀ a, (![0, o, 0] : Fin 3 → ℕ) a + S256x1x512.size a ≤ S256x8x512.size a)
    (inb1 : ∀ a, (![o, 0] : Fin 2 → ℕ) a + S1x512.size a ≤ S8x512.size a)
    (x0 : Vec Ideal S256x512 .f32) (x1 : Vec Ideal S8x512 .f32) (x2 : Vec Ideal S512x512 .f32)
    (x : S256x1x512.Idx) :
    slab (projBlk x0 x2 (View.ld x1 (Rect.unit (s := S8x512) ![o, 0] S1x512.size inb1))) x
      = Cert.Spec.mulG (B := 256) x0 x1 x2 ((Rect.unit (s := S256x8x512) ![0, o, 0] S256x1x512.size inb4).emb x) :=
  Cert.SlabIdx.slab_piece o c hc inb4 shapeCasts_S256x512_S256x1x512 _ (Cert.Spec.mulG (B := 256) x0 x1 x2)
    (fun p d => by
      refine (Cert.KEntries.projBlk_apply x0 x2 _ p d).trans ?_
      show _ = Cert.Spec.proj (Cert.Spec.at2 x0) (Cert.Spec.at2 x1) (Cert.Spec.at2 x2) p c d
      unfold Cert.Spec.proj Cert.Spec.at2
      exact Finset.sum_congr rfl fun h _ =>
        congrArg₂ (· * ·) (congrArg₂ (· * ·) rfl (Cert.SlabIdx.ld_row o c hc inb1 x1 0 h)) rfl) x

/-- The eight stored slabs leave P in the projection's staging buffer. -/
theorem canon4 (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S512x512 .f32) (harg3 : arg3.IsWhole) (arg4 : Memref sig .tc .vmem S50x8x512 .f32) (harg4 : arg4.IsWhole) (arg5 : Memref sig .tc .vmem S256x8x512 .f32) (harg5 : arg5.IsWhole) (arg6 : Memref sig .tc .vmem S256x8x50 .f32) (harg6 : arg6.IsWhole) (arg7 : Memref sig .tc .vmem S256x8x50 .f32) (harg7 : arg7.IsWhole) (x0 : Vec Ideal S256x512 .f32) (x1 : Vec Ideal S8x512 .f32) (x2 : Vec Ideal S512x512 .f32) (x3 : Vec Ideal S50x8x512 .f32) :
    View.canon (kernelRun0_A (F := Ideal) c i arg1 harg1 arg2 harg2 arg3 harg3 arg4 harg4 arg5 harg5 arg6 harg6 arg7 harg7 x0 x1 x2 x3).1 = Cert.Spec.mulG (B := 256) x0 x1 x2 := by
  funext y
  refine View.canon_apply_of_pieces _ _ ?_ y (cover0_A_4 c i arg1 harg1 arg2 harg2 arg3 harg3 arg4 harg4 arg5 harg5 arg6 harg6 arg7 harg7 x0 x1 x2 x3 y)
  unfold kernelRun0_A
  dsimp only
  sl_unfold_words
  intro pc hpc x
  simp only [List.mem_cons, List.mem_nil_iff, or_false] at hpc
  rcases hpc with rfl | rfl | rfl | rfl | rfl | rfl | rfl | rfl
  all_goals simp only [View.readAt_eq_ld, harg1.read_unread, harg2.read_unread, harg3.read_unread, harg4.read_unread,
    View.ld_unit_zero (S := S256x512) hz2, View.ld_unit_zero (S := S512x512) hz2, View.ld_unit_zero (S := S50x8x512) hz3]
  · exact proj_piece 7 7 rfl inb_S256x8x512_S256x1x512_0_7_0 inb_S8x512_S1x512_7_0 x0 x1 x2 x
  · exact proj_piece 6 6 rfl inb_S256x8x512_S256x1x512_0_6_0 inb_S8x512_S1x512_6_0 x0 x1 x2 x
  · exact proj_piece 5 5 rfl inb_S256x8x512_S256x1x512_0_5_0 inb_S8x512_S1x512_5_0 x0 x1 x2 x
  · exact proj_piece 4 4 rfl inb_S256x8x512_S256x1x512_0_4_0 inb_S8x512_S1x512_4_0 x0 x1 x2 x
  · exact proj_piece 3 3 rfl inb_S256x8x512_S256x1x512_0_3_0 inb_S8x512_S1x512_3_0 x0 x1 x2 x
  · exact proj_piece 2 2 rfl inb_S256x8x512_S256x1x512_0_2_0 inb_S8x512_S1x512_2_0 x0 x1 x2 x
  · exact proj_piece 1 1 rfl inb_S256x8x512_S256x1x512_0_1_0 inb_S8x512_S1x512_1_0 x0 x1 x2 x
  · exact proj_piece 0 0 rfl inb_S256x8x512_S256x1x512_0_0_0 inb_S8x512_S1x512_0_0 x0 x1 x2 x

/-- What a point leaves in the projection's staging buffer. -/
theorem out4_eq (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S512x512 .f32) (harg3 : arg3.IsWhole) (arg4 : Memref sig .tc .vmem S50x8x512 .f32) (harg4 : arg4.IsWhole) (arg5 : Memref sig .tc .vmem S256x8x512 .f32) (harg5 : arg5.IsWhole) (arg6 : Memref sig .tc .vmem S256x8x50 .f32) (harg6 : arg6.IsWhole) (arg7 : Memref sig .tc .vmem S256x8x50 .f32) (harg7 : arg7.IsWhole) (x0 : Vec Ideal S256x512 .f32) (x1 : Vec Ideal S8x512 .f32) (x2 : Vec Ideal S512x512 .f32) (x3 : Vec Ideal S50x8x512 .f32) :
    out0_A_4 (F := Ideal) c i arg1 harg1 arg2 harg2 arg3 harg3 arg4 harg4 arg5 harg5 arg6 harg6 arg7 harg7 x0 x1 x2 x3 = Cert.Spec.mulG (B := 256) x0 x1 x2 := by
  unfold out0_A_4
  rw [View.read_writes_eq_canon _ _ _ (cover0_A_4 c i arg1 harg1 arg2 harg2 arg3 harg3 arg4 harg4 arg5 harg5 arg6 harg6 arg7 harg7 x0 x1 x2 x3)]
  exact canon4 c i arg1 harg1 arg2 harg2 arg3 harg3 arg4 harg4 arg5 harg5 arg6 harg6 arg7 harg7 x0 x1 x2 x3

/-! ## The scores -/

/-- Centre c's score, from its slab of P read back out of the covered buffer and its slab of μ, at (p, k). -/
theorem score_entry (o : ℕ) (c : Fin 8) (hc : c.val = o) (hsl : S50x8x512.Slices ![0, o, 0] S50x1x512)
    (inb5 : ∀ a, (![0, o, 0] : Fin 3 → ℕ) a + S256x1x512.size a ≤ S256x8x512.size a)
    (inb3 : ∀ a, (![0, o, 0] : Fin 3 → ℕ) a + S50x1x512.size a ≤ S50x8x512.size a)
    (v : View sig .tc .vmem S256x8x512 .f32) (L : List (View.Piece (Elt Ideal) S256x8x512 .f32))
    (hcov : ∀ y, ∃ pc ∈ L, y ∈ pc.1.set)
    (x0 : Vec Ideal S256x512 .f32) (x1 : Vec Ideal S8x512 .f32) (x2 : Vec Ideal S512x512 .f32)
    (x3 : Vec Ideal S50x8x512 .f32) (hG : View.canon L = Cert.Spec.mulG (B := 256) x0 x1 x2)
    (p : Fin 256) (k : Fin 50) :
    scoreBlk (F := Ideal) ![0, o, 0] hsl x3
        (v.readCov L (Rect.unit (s := S256x8x512) ![0, o, 0] S256x1x512.size inb5).toLoadRect)
        (View.ld x3 (Rect.unit (s := S50x8x512) ![0, o, 0] S50x1x512.size inb3)) (ix2 p k)
      = blkS x0 x1 x2 x3 p k c := by
  rw [Cert.KEntries.scoreBlk_apply o c hc hsl, View.readCov_eq_canon_ld v L _ hcov, hG]
  have e1 : ∀ h : Fin 512, View.ld (Val := Elt Ideal) (e' := .f32) (Cert.Spec.mulG (B := 256) x0 x1 x2)
      (Rect.unit (s := S256x8x512) ![0, o, 0] S256x1x512.size inb5) (ix3 p (0 : Fin 1) h)
        = Cert.Spec.proj (Cert.Spec.at2 x0) (Cert.Spec.at2 x1) (Cert.Spec.at2 x2) p c h :=
    fun h => Cert.SlabIdx.ld_slab (Val := Elt Ideal) (e := .f32) o c hc inb5 (Cert.Spec.mulG (B := 256) x0 x1 x2) p 0 h
  have e2 : ∀ h : Fin 512, View.ld x3 (Rect.unit (s := S50x8x512) ![0, o, 0] S50x1x512.size inb3) (ix3 k (0 : Fin 1) h)
        = Cert.Spec.at3 x3 k c h :=
    fun h => Cert.SlabIdx.ld_slab o c hc inb3 x3 k 0 h
  simp only [e1, e2]
  rfl

/-! ## The two normalised outputs -/

/-- What a point leaves in the staging buffer of the first quotient (the third output). -/
theorem out6_eq (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S512x512 .f32) (harg3 : arg3.IsWhole) (arg4 : Memref sig .tc .vmem S50x8x512 .f32) (harg4 : arg4.IsWhole) (arg5 : Memref sig .tc .vmem S256x8x512 .f32) (harg5 : arg5.IsWhole) (arg6 : Memref sig .tc .vmem S256x8x50 .f32) (harg6 : arg6.IsWhole) (arg7 : Memref sig .tc .vmem S256x8x50 .f32) (harg7 : arg7.IsWhole) (x0 : Vec Ideal S256x512 .f32) (x1 : Vec Ideal S8x512 .f32) (x2 : Vec Ideal S512x512 .f32) (x3 : Vec Ideal S50x8x512 .f32) :
    out0_A_6 (F := Ideal) c i arg1 harg1 arg2 harg2 arg3 harg3 arg4 harg4 arg5 harg5 arg6 harg6 arg7 harg7 x0 x1 x2 x3 = Cert.Spec.distKT (B := 256) x0 x1 x2 x3 := by
  have hcov4 := cover0_A_4 (F := Ideal) c i arg1 harg1 arg2 harg2 arg3 harg3 arg4 harg4 arg5 harg5 arg6 harg6 arg7 harg7 x0 x1 x2 x3
  have e4 := canon4 c i arg1 harg1 arg2 harg2 arg3 harg3 arg4 harg4 arg5 harg5 arg6 harg6 arg7 harg7 x0 x1 x2 x3
  unfold out0_A_6
  rw [View.read_writes_eq_canon _ _ _ (cover0_A_6 c i arg1 harg1 arg2 harg2 arg3 harg3 arg4 harg4 arg5 harg5 arg6 harg6 arg7 harg7 x0 x1 x2 x3)]
  funext y
  refine View.canon_apply_of_pieces _ _ ?_ y (cover0_A_6 c i arg1 harg1 arg2 harg2 arg3 harg3 arg4 harg4 arg5 harg5 arg6 harg6 arg7 harg7 x0 x1 x2 x3 y)
  revert hcov4 e4
  unfold kernelRun0_A
  dsimp only
  sl_unfold_words
  intro hcov4 e4
  simp only [View.readAt_eq_ld, harg1.read_unread, harg2.read_unread, harg3.read_unread, harg4.read_unread,
    View.ld_unit_zero (S := S256x512) hz2, View.ld_unit_zero (S := S512x512) hz2, View.ld_unit_zero (S := S50x8x512) hz3] at hcov4 e4 ⊢
  refine Cert.KPieces.dist_pieces _ _ _ _ _ _ _ _ _ _ (blkS x0 x1 x2 x3) ?_ ?_ ?_ ?_ ?_ ?_ ?_ ?_
  · exact fun p k => (congrFun (score0 x3 _ _) (ix2 p k)).trans
      (score_entry 0 0 rfl slices_S50x8x512_o0_0_0_S50x1x512 inb_S256x8x512_S256x1x512_0_0_0 inb_S50x8x512_S50x1x512_0_0_0 arg5.view _ hcov4 x0 x1 x2 x3 e4 p k)
  · exact fun p k => (congrFun (score1 x3 _ _) (ix2 p k)).trans
      (score_entry 1 1 rfl slices_S50x8x512_o0_1_0_S50x1x512 inb_S256x8x512_S256x1x512_0_1_0 inb_S50x8x512_S50x1x512_0_1_0 arg5.view _ hcov4 x0 x1 x2 x3 e4 p k)
  · exact fun p k => (congrFun (score2 x3 _ _) (ix2 p k)).trans
      (score_entry 2 2 rfl slices_S50x8x512_o0_2_0_S50x1x512 inb_S256x8x512_S256x1x512_0_2_0 inb_S50x8x512_S50x1x512_0_2_0 arg5.view _ hcov4 x0 x1 x2 x3 e4 p k)
  · exact fun p k => (congrFun (score3 x3 _ _) (ix2 p k)).trans
      (score_entry 3 3 rfl slices_S50x8x512_o0_3_0_S50x1x512 inb_S256x8x512_S256x1x512_0_3_0 inb_S50x8x512_S50x1x512_0_3_0 arg5.view _ hcov4 x0 x1 x2 x3 e4 p k)
  · exact fun p k => (congrFun (score4 x3 _ _) (ix2 p k)).trans
      (score_entry 4 4 rfl slices_S50x8x512_o0_4_0_S50x1x512 inb_S256x8x512_S256x1x512_0_4_0 inb_S50x8x512_S50x1x512_0_4_0 arg5.view _ hcov4 x0 x1 x2 x3 e4 p k)
  · exact fun p k => (congrFun (score5 x3 _ _) (ix2 p k)).trans
      (score_entry 5 5 rfl slices_S50x8x512_o0_5_0_S50x1x512 inb_S256x8x512_S256x1x512_0_5_0 inb_S50x8x512_S50x1x512_0_5_0 arg5.view _ hcov4 x0 x1 x2 x3 e4 p k)
  · exact fun p k => (congrFun (score6 x3 _ _) (ix2 p k)).trans
      (score_entry 6 6 rfl slices_S50x8x512_o0_6_0_S50x1x512 inb_S256x8x512_S256x1x512_0_6_0 inb_S50x8x512_S50x1x512_0_6_0 arg5.view _ hcov4 x0 x1 x2 x3 e4 p k)
  · exact fun p k => (congrFun (score7 x3 _ _) (ix2 p k)).trans
      (score_entry 7 7 rfl slices_S50x8x512_o0_7_0_S50x1x512 inb_S256x8x512_S256x1x512_0_7_0 inb_S50x8x512_S50x1x512_0_7_0 arg5.view _ hcov4 x0 x1 x2 x3 e4 p k)

/-- What a point leaves in the staging buffer of the second quotient (the second output). -/
theorem out5_eq (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S512x512 .f32) (harg3 : arg3.IsWhole) (arg4 : Memref sig .tc .vmem S50x8x512 .f32) (harg4 : arg4.IsWhole) (arg5 : Memref sig .tc .vmem S256x8x512 .f32) (harg5 : arg5.IsWhole) (arg6 : Memref sig .tc .vmem S256x8x50 .f32) (harg6 : arg6.IsWhole) (arg7 : Memref sig .tc .vmem S256x8x50 .f32) (harg7 : arg7.IsWhole) (x0 : Vec Ideal S256x512 .f32) (x1 : Vec Ideal S8x512 .f32) (x2 : Vec Ideal S512x512 .f32) (x3 : Vec Ideal S50x8x512 .f32) :
    out0_A_5 (F := Ideal) c i arg1 harg1 arg2 harg2 arg3 harg3 arg4 harg4 arg5 harg5 arg6 harg6 arg7 harg7 x0 x1 x2 x3 = Cert.Spec.kasKT (B := 256) x0 x1 x2 x3 := by
  have hcov4 := cover0_A_4 (F := Ideal) c i arg1 harg1 arg2 harg2 arg3 harg3 arg4 harg4 arg5 harg5 arg6 harg6 arg7 harg7 x0 x1 x2 x3
  have e4 := canon4 c i arg1 harg1 arg2 harg2 arg3 harg3 arg4 harg4 arg5 harg5 arg6 harg6 arg7 harg7 x0 x1 x2 x3
  unfold out0_A_5
  rw [View.read_writes_eq_canon _ _ _ (cover0_A_5 c i arg1 harg1 arg2 harg2 arg3 harg3 arg4 harg4 arg5 harg5 arg6 harg6 arg7 harg7 x0 x1 x2 x3)]
  funext y
  refine View.canon_apply_of_pieces _ _ ?_ y (cover0_A_5 c i arg1 harg1 arg2 harg2 arg3 harg3 arg4 harg4 arg5 harg5 arg6 harg6 arg7 harg7 x0 x1 x2 x3 y)
  revert hcov4 e4
  unfold kernelRun0_A
  dsimp only
  sl_unfold_words
  intro hcov4 e4
  simp only [View.readAt_eq_ld, harg1.read_unread, harg2.read_unread, harg3.read_unread, harg4.read_unread,
    View.ld_unit_zero (S := S256x512) hz2, View.ld_unit_zero (S := S512x512) hz2, View.ld_unit_zero (S := S50x8x512) hz3] at hcov4 e4 ⊢
  refine Cert.KPieces.kas_pieces _ _ _ _ _ _ _ _ _ _ (blkS x0 x1 x2 x3) ?_ ?_ ?_ ?_ ?_ ?_ ?_ ?_
  · exact fun p k => (congrFun (score0 x3 _ _) (ix2 p k)).trans
      (score_entry 0 0 rfl slices_S50x8x512_o0_0_0_S50x1x512 inb_S256x8x512_S256x1x512_0_0_0 inb_S50x8x512_S50x1x512_0_0_0 arg5.view _ hcov4 x0 x1 x2 x3 e4 p k)
  · exact fun p k => (congrFun (score1 x3 _ _) (ix2 p k)).trans
      (score_entry 1 1 rfl slices_S50x8x512_o0_1_0_S50x1x512 inb_S256x8x512_S256x1x512_0_1_0 inb_S50x8x512_S50x1x512_0_1_0 arg5.view _ hcov4 x0 x1 x2 x3 e4 p k)
  · exact fun p k => (congrFun (score2 x3 _ _) (ix2 p k)).trans
      (score_entry 2 2 rfl slices_S50x8x512_o0_2_0_S50x1x512 inb_S256x8x512_S256x1x512_0_2_0 inb_S50x8x512_S50x1x512_0_2_0 arg5.view _ hcov4 x0 x1 x2 x3 e4 p k)
  · exact fun p k => (congrFun (score3 x3 _ _) (ix2 p k)).trans
      (score_entry 3 3 rfl slices_S50x8x512_o0_3_0_S50x1x512 inb_S256x8x512_S256x1x512_0_3_0 inb_S50x8x512_S50x1x512_0_3_0 arg5.view _ hcov4 x0 x1 x2 x3 e4 p k)
  · exact fun p k => (congrFun (score4 x3 _ _) (ix2 p k)).trans
      (score_entry 4 4 rfl slices_S50x8x512_o0_4_0_S50x1x512 inb_S256x8x512_S256x1x512_0_4_0 inb_S50x8x512_S50x1x512_0_4_0 arg5.view _ hcov4 x0 x1 x2 x3 e4 p k)
  · exact fun p k => (congrFun (score5 x3 _ _) (ix2 p k)).trans
      (score_entry 5 5 rfl slices_S50x8x512_o0_5_0_S50x1x512 inb_S256x8x512_S256x1x512_0_5_0 inb_S50x8x512_S50x1x512_0_5_0 arg5.view _ hcov4 x0 x1 x2 x3 e4 p k)
  · exact fun p k => (congrFun (score6 x3 _ _) (ix2 p k)).trans
      (score_entry 6 6 rfl slices_S50x8x512_o0_6_0_S50x1x512 inb_S256x8x512_S256x1x512_0_6_0 inb_S50x8x512_S50x1x512_0_6_0 arg5.view _ hcov4 x0 x1 x2 x3 e4 p k)
  · exact fun p k => (congrFun (score7 x3 _ _) (ix2 p k)).trans
      (score_entry 7 7 rfl slices_S50x8x512_o0_7_0_S50x1x512 inb_S256x8x512_S256x1x512_0_7_0 inb_S50x8x512_S50x1x512_0_7_0 arg5.view _ hcov4 x0 x1 x2 x3 e4 p k)

end Cert.KBlock

end
-- ==== Proof.RowLocal.lean ====
/-
  Every row of the results depends on the same row of the batch x only.

  P[b, ·, ·], s[b, ·, ·], D[b, ·, ·] and A[b, ·, ·] are functions of x[b, ·] and of the whole m, W and μ. So when row b of
  one batch and row b' of another are equal, the results' rows b and b' are equal: this is what lets a block of rows
  of the batch be treated by itself, and the results of the blocks be laid side by side.
-/
import proofs.«173172_j47614007444072_2_alg».proof.Proof.Spec

noncomputable section

namespace Cert.RowLocal

open Idealize.ShloMosaic Idealize.ShloMosaic.ValueIdx Cert.Spec

variable {B B' : ℕ}

/-- Row b of the projection depends on row b of x only. -/
theorem proj_row {x : Fin B → Fin 512 → EReal} {x' : Fin B' → Fin 512 → EReal} (msk : Fin 8 → Fin 512 → EReal)
    (w : Fin 512 → Fin 512 → EReal) {b : Fin B} {b' : Fin B'} (hrow : ∀ h, x b h = x' b' h) :
    proj x msk w b = proj x' msk w b' := by
  funext c d
  unfold proj
  exact Finset.sum_congr rfl fun h _ => by rw [hrow h]

/-- Row b of the score depends on row b of the projection only. -/
theorem scoreK_row {P : Fin B → Fin 8 → Fin 512 → EReal} {P' : Fin B' → Fin 8 → Fin 512 → EReal}
    (mu : Fin 50 → Fin 8 → Fin 512 → EReal) {b : Fin B} {b' : Fin B'} (h : P b = P' b') :
    scoreK P mu b = scoreK P' mu b' := by
  funext k c
  unfold scoreK
  rw [h]

/-- Row b of the first normalisation depends on row b of the scores only. -/
theorem dist_row {S : Fin B → Fin 50 → Fin 8 → EReal} {S' : Fin B' → Fin 50 → Fin 8 → EReal} {b : Fin B} {b' : Fin B'}
    (h : S b = S' b') : Spec.dist S b = Spec.dist S' b' := by
  funext k c
  unfold Spec.dist
  rw [h]

/-- Row b of the second normalisation depends on row b of the first only. -/
theorem kas_row {D : Fin B → Fin 50 → Fin 8 → EReal} {D' : Fin B' → Fin 50 → Fin 8 → EReal} {b : Fin B} {b' : Fin B'}
    (h : D b = D' b') : kas D b = kas D' b' := by
  funext k c
  unfold kas
  rw [h]

variable (x : (⟨2, ![B, 512]⟩ : Shape).Idx → EReal) (x' : (⟨2, ![B', 512]⟩ : Shape).Idx → EReal)
  (msk : (⟨2, ![8, 512]⟩ : Shape).Idx → EReal) (w : (⟨2, ![512, 512]⟩ : Shape).Idx → EReal)
  (mu : (⟨3, ![50, 8, 512]⟩ : Shape).Idx → EReal)

/-- The projection arrays of two batches agree at two indices whose rows of x agree and whose other coordinates are equal. -/
theorem mulG_rows (i : (⟨3, ![B, 8, 512]⟩ : Shape).Idx) (i' : (⟨3, ![B', 8, 512]⟩ : Shape).Idx)
    (hrow : ∀ h : Fin 512, x (ix2 (i 0) h) = x' (ix2 (i' 0) h)) (h1 : i 1 = i' 1) (h2 : i 2 = i' 2) :
    mulG x msk w i = mulG x' msk w i' := by
  unfold mulG
  rw [h1, h2]
  exact congrFun (congrFun (proj_row _ _ hrow) _) _

/-- The same for the normalised scores in the layout [B, 8, 50]. -/
theorem distKT_rows (i : (⟨3, ![B, 8, 50]⟩ : Shape).Idx) (i' : (⟨3, ![B', 8, 50]⟩ : Shape).Idx)
    (hrow : ∀ h : Fin 512, x (ix2 (i 0) h) = x' (ix2 (i' 0) h)) (h1 : i 1 = i' 1) (h2 : i 2 = i' 2) :
    distKT x msk w mu i = distKT x' msk w mu i' := by
  unfold distKT
  rw [h1, h2]
  exact congrFun (congrFun (dist_row (scoreK_row _ (proj_row _ _ hrow))) _) _

/-- The same for the twice-normalised scores in the layout [B, 8, 50]. -/
theorem kasKT_rows (i : (⟨3, ![B, 8, 50]⟩ : Shape).Idx) (i' : (⟨3, ![B', 8, 50]⟩ : Shape).Idx)
    (hrow : ∀ h : Fin 512, x (ix2 (i 0) h) = x' (ix2 (i' 0) h)) (h1 : i 1 = i' 1) (h2 : i 2 = i' 2) :
    kasKT x msk w mu i = kasKT x' msk w mu i' := by
  unfold kasKT
  rw [h1, h2]
  exact congrFun (congrFun (kas_row (dist_row (scoreK_row _ (proj_row _ _ hrow)))) _) _

end Cert.RowLocal

end
-- ==== Proof.KernelCover.lean ====
/-
  From the blocks of rows to the whole arrays.

  The grid has four points; point t works on rows 256·t … 256·t + 255 of the batch x and on the whole of m, W and μ, and
  writes back rows 256·t … 256·t + 255 of each of the three result arrays. Every row of the results depends on the same
  row of x only, so what point t writes back is rows 256·t … of the result of the whole batch; row r lies in the block of
  point r / 256, so the four blocks fill each array, which therefore ends holding the result of the whole batch.
-/
import proofs.«173172_j47614007444072_2_alg».proof.Proof.Gen.KernelIdeal.Frame
import proofs.«173172_j47614007444072_2_alg».proof.Proof.Spec
import proofs.«173172_j47614007444072_2_alg».proof.Proof.RowLocal
import Idealize.ShloMosaic.Lib.Pipeline.Value
import Idealize.ShloMosaic.Lib.ValueIdx
import Idealize.ShloMosaic.Lib.ValueLayout

set_option maxRecDepth 16384

noncomputable section

namespace Cert.KArrays

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-- What one grid point leaves in the first output's staging buffer: the projection of its block of rows. -/
def Out4Spec : Prop := ∀ (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S512x512 .f32) (harg3 : arg3.IsWhole) (arg4 : Memref sig .tc .vmem S50x8x512 .f32) (harg4 : arg4.IsWhole) (arg5 : Memref sig .tc .vmem S256x8x512 .f32) (harg5 : arg5.IsWhole) (arg6 : Memref sig .tc .vmem S256x8x50 .f32) (harg6 : arg6.IsWhole) (arg7 : Memref sig .tc .vmem S256x8x50 .f32) (harg7 : arg7.IsWhole) (x0 : Vec Ideal S256x512 .f32) (x1 : Vec Ideal S8x512 .f32) (x2 : Vec Ideal S512x512 .f32) (x3 : Vec Ideal S50x8x512 .f32),
  out0_A_4 (F := Ideal) c i arg1 harg1 arg2 harg2 arg3 harg3 arg4 harg4 arg5 harg5 arg6 harg6 arg7 harg7 x0 x1 x2 x3 = Cert.Spec.mulG (B := 256) x0 x1 x2
/-- What one grid point leaves in the second output's staging buffer: the twice-normalised scores of its block of rows. -/
def Out5Spec : Prop := ∀ (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S512x512 .f32) (harg3 : arg3.IsWhole) (arg4 : Memref sig .tc .vmem S50x8x512 .f32) (harg4 : arg4.IsWhole) (arg5 : Memref sig .tc .vmem S256x8x512 .f32) (harg5 : arg5.IsWhole) (arg6 : Memref sig .tc .vmem S256x8x50 .f32) (harg6 : arg6.IsWhole) (arg7 : Memref sig .tc .vmem S256x8x50 .f32) (harg7 : arg7.IsWhole) (x0 : Vec Ideal S256x512 .f32) (x1 : Vec Ideal S8x512 .f32) (x2 : Vec Ideal S512x512 .f32) (x3 : Vec Ideal S50x8x512 .f32),
  out0_A_5 (F := Ideal) c i arg1 harg1 arg2 harg2 arg3 harg3 arg4 harg4 arg5 harg5 arg6 harg6 arg7 harg7 x0 x1 x2 x3 = Cert.Spec.kasKT (B := 256) x0 x1 x2 x3
/-- What one grid point leaves in the third output's staging buffer: the normalised scores of its block of rows. -/
def Out6Spec : Prop := ∀ (c : Dev nD) (i : grid0.Coords) (arg1 : Memref sig .tc .vmem S256x512 .f32) (harg1 : arg1.IsWhole) (arg2 : Memref sig .tc .vmem S8x512 .f32) (harg2 : arg2.IsWhole) (arg3 : Memref sig .tc .vmem S512x512 .f32) (harg3 : arg3.IsWhole) (arg4 : Memref sig .tc .vmem S50x8x512 .f32) (harg4 : arg4.IsWhole) (arg5 : Memref sig .tc .vmem S256x8x512 .f32) (harg5 : arg5.IsWhole) (arg6 : Memref sig .tc .vmem S256x8x50 .f32) (harg6 : arg6.IsWhole) (arg7 : Memref sig .tc .vmem S256x8x50 .f32) (harg7 : arg7.IsWhole) (x0 : Vec Ideal S256x512 .f32) (x1 : Vec Ideal S8x512 .f32) (x2 : Vec Ideal S512x512 .f32) (x3 : Vec Ideal S50x8x512 .f32),
  out0_A_6 (F := Ideal) c i arg1 harg1 arg2 harg2 arg3 harg3 arg4 harg4 arg5 harg5 arg6 harg6 arg7 harg7 x0 x1 x2 x3 = Cert.Spec.distKT (B := 256) x0 x1 x2 x3

/-! ## Where the blocks sit -/

/-- The block indices of the seven windows at point t: the batch x and the three results move with the point along the
    rows, the other operands are taken whole. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = 0 ∧ win0_3.index t (1 : Fin 3) = 0 ∧ win0_3.index t (2 : Fin 3) = 0
    ∧ win0_4.index t (0 : Fin 3) = t.val ∧ win0_4.index t (1 : Fin 3) = 0 ∧ win0_4.index t (2 : Fin 3) = 0
    ∧ win0_5.index t (0 : Fin 3) = t.val ∧ win0_5.index t (1 : Fin 3) = 0 ∧ win0_5.index t (2 : Fin 3) = 0
    ∧ win0_6.index t (0 : Fin 3) = t.val ∧ win0_6.index t (1 : Fin 3) = 0 ∧ win0_6.index t (2 : Fin 3) = 0 :=
  (by decide +kernel : ∀ t : Fin grid0.N, _)

/-- The block of x at point t is rows 256·t … 256·t + 255 of x. -/
theorem iblk0_apply (c : Dev nD) (t : Fin cfg0.N) (y : S256x512.Idx) (k : S1024x512.Idx)
    (hk0 : (k 0).val = t.val * 256 + (y 0).val) (hk1 : (k 1).val = (y 1).val) :
    (iblk m c 0 t : S256x512.Idx → EReal) y = (V m c main_arg0 : S1024x512.Idx → EReal) k := by
  obtain ⟨e0, e1, -⟩ := idx_facts t
  unfold iblk
  rw [View.read_apply]
  show V m c main_arg0 _ = V m c main_arg0 _
  refine congrArg (V m c main_arg0) (funext fun a => Fin.ext ?_)
  match a with
  | ⟨0, _⟩ => show win0_0.index t (0 : Fin 2) * 256 + 1 * (y 0).val = (k 0).val; rw [e0, hk0]; omega
  | ⟨1, _⟩ => show win0_0.index t (1 : Fin 2) * 512 + 1 * (y 1).val = (k 1).val; rw [e1, hk1]; omega

/-- The block of m at every point is the whole of m. -/
theorem iblk1_eq (c : Dev nD) (t : Fin cfg0.N) : (iblk m c 1 t : S8x512.Idx → EReal) = V m c main_arg2 := by
  obtain ⟨-, -, e0, e1, -⟩ := idx_facts t
  funext y
  unfold iblk
  rw [View.read_apply]
  show V m c main_arg2 _ = V m c main_arg2 _
  refine congrArg (V m c main_arg2) (funext fun a => Fin.ext ?_)
  match a with
  | ⟨0, _⟩ => show win0_1.index t (0 : Fin 2) * 8 + 1 * (y 0).val = (y 0).val; rw [e0]; omega
  | ⟨1, _⟩ => show win0_1.index t (1 : Fin 2) * 512 + 1 * (y 1).val = (y 1).val; rw [e1]; omega

/-- The block of W at every point is the whole of W. -/
theorem iblk2_eq (c : Dev nD) (t : Fin cfg0.N) : (iblk m c 2 t : S512x512.Idx → EReal) = V m c main_arg3 := by
  obtain ⟨-, -, -, -, e0, e1, -⟩ := idx_facts t
  funext y
  unfold iblk
  rw [View.read_apply]
  show V m c main_arg3 _ = V m c main_arg3 _
  refine congrArg (V m c main_arg3) (funext fun a => Fin.ext ?_)
  match a with
  | ⟨0, _⟩ => show win0_2.index t (0 : Fin 2) * 512 + 1 * (y 0).val = (y 0).val; rw [e0]; omega
  | ⟨1, _⟩ => show win0_2.index t (1 : Fin 2) * 512 + 1 * (y 1).val = (y 1).val; rw [e1]; omega

/-- The block of μ at every point is the whole of μ. -/
theorem iblk3_eq (c : Dev nD) (t : Fin cfg0.N) : (iblk m c 3 t : S50x8x512.Idx → EReal) = V m c main_arg1 := by
  obtain ⟨-, -, -, -, -, -, e0, e1, e2, -⟩ := idx_facts t
  funext y
  unfold iblk
  rw [View.read_apply]
  show V m c main_arg1 _ = V m c main_arg1 _
  refine congrArg (V m c main_arg1) (funext fun a => Fin.ext ?_)
  match a with
  | ⟨0, _⟩ => show win0_3.index t (0 : Fin 3) * 50 + 1 * (y 0).val = (y 0).val; rw [e0]; omega
  | ⟨1, _⟩ => show win0_3.index t (1 : Fin 3) * 8 + 1 * (y 1).val = (y 1).val; rw [e1]; omega
  | ⟨2, _⟩ => show win0_3.index t (2 : Fin 3) * 512 + 1 * (y 2).val = (y 2).val; rw [e2]; omega

/-! ## A block of rows of the batch gives the same rows of the results -/

section block
variable (X : S1024x512.Idx → EReal) (xb : S256x512.Idx → EReal) (M : S8x512.Idx → EReal) (W : S512x512.Idx → EReal)
  (mu : S50x8x512.Idx → EReal) (q : ℕ)
  (hx : ∀ (y : S256x512.Idx) (k : S1024x512.Idx), (k 0).val = q * 256 + (y 0).val → (k 1).val = (y 1).val → xb y = X k)
include hx

theorem mulG_block (j : S256x8x512.Idx) (i : S1024x8x512.Idx) (h0 : (i 0).val = q * 256 + (j 0).val)
    (h1 : (i 1).val = (j 1).val) (h2 : (i 2).val = (j 2).val) :
    Cert.Spec.mulG (B := 256) xb M W j = Cert.Spec.mulG (B := 1024) X M W i :=
  Cert.RowLocal.mulG_rows xb X M W j i (fun _ => hx _ _ h0 rfl) (Fin.ext h1.symm) (Fin.ext h2.symm)

theorem kasKT_block (j : S256x8x50.Idx) (i : S1024x8x50.Idx) (h0 : (i 0).val = q * 256 + (j 0).val)
    (h1 : (i 1).val = (j 1).val) (h2 : (i 2).val = (j 2).val) :
    Cert.Spec.kasKT (B := 256) xb M W mu j = Cert.Spec.kasKT (B := 1024) X M W mu i :=
  Cert.RowLocal.kasKT_rows xb X M W mu j i (fun _ => hx _ _ h0 rfl) (Fin.ext h1.symm) (Fin.ext h2.symm)

theorem distKT_block (j : S256x8x50.Idx) (i : S1024x8x50.Idx) (h0 : (i 0).val = q * 256 + (j 0).val)
    (h1 : (i 1).val = (j 1).val) (h2 : (i 2).val = (j 2).val) :
    Cert.Spec.distKT (B := 256) xb M W mu j = Cert.Spec.distKT (B := 1024) X M W mu i :=
  Cert.RowLocal.distKT_rows xb X M W mu j i (fun _ => hx _ _ h0 rfl) (Fin.ext h1.symm) (Fin.ext h2.symm)

end block

/-! ## The three results -/

/-- What point t writes back to result 1 is rows 256·t … of the result of the whole batch. -/
theorem flushed4_eq (H4 : Out4Spec) (m : (ℓ : Loc nD τ sig) → Buf (Elt Ideal) ℓ) (c : Dev nD)
    (t : Fin cfg0.N) :
    (dats (F := Ideal) m 0 c).flushed 4 t = ((cfg0.win 4).blk t).view.read (Elt Ideal)
      (Cert.Spec.mulG (B := 1024) (V m c main_arg0) (V m c main_arg2) (V m c main_arg3)) := by
  show (cfg0.win 4).cut (grid0.coords t) ((dats m 0 c).after 4 t) = _
  rw [after0_4]
  unfold outsAt0
  dsimp only
  rw [H4, iblk1_eq m c t, iblk2_eq m c t]
  obtain ⟨-, -, -, -, -, -, -, -, -, e0, e1, e2, -, -, -, -, -, -⟩ := idx_facts t
  funext j
  show Cert.Spec.mulG (B := 256) (iblk m c 0 t) (V m c main_arg2) (V m c main_arg3) ((cfg0.win 4).xinj (grid0.coords t) j)
    = Cert.Spec.mulG (B := 1024) (V m c main_arg0) (V m c main_arg2) (V m c main_arg3) (((cfg0.win 4).blk t).view.emb j)
  refine mulG_block (V m c main_arg0) (iblk m c 0 t) (V m c main_arg2) (V m c main_arg3) t.val (iblk0_apply m c t) ((cfg0.win 4).xinj (grid0.coords t) j)
    (((cfg0.win 4).blk t).view.emb j) ?_ ?_ ?_
  · show win0_4.index t (0 : Fin 3) * 256 + 1 * (j 0).val = t.val * 256 + (j 0).val; rw [e0]; omega
  · show win0_4.index t (1 : Fin 3) * 8 + 1 * (j 1).val = (j 1).val; rw [e1]; omega
  · show win0_4.index t (2 : Fin 3) * 512 + 1 * (j 2).val = (j 2).val; rw [e2]; omega

/-- An index of the array is in point t's block when each coordinate is in the block's range on its axis. -/
theorem mem_blk4 (t : Fin cfg0.N) (i : S1024x8x512.Idx) :
    i ∈ ((cfg0.win 4).blk t).view.set ↔ ∀ a : Fin 3, win0_4.index t a * S256x8x512.size a ≤ (i a).val
      ∧ (i a).val < win0_4.index t a * S256x8x512.size a + S256x8x512.size a := by
  show i ∈ ((View.whole main_v0_0).slice (win0_4.rect t)).set ↔ _
  rw [View.set_slice_whole, Rect.mem_set_unit]
  exact Iff.rfl

/-- Row r lies in the block of point r / 256: the four blocks fill the array. -/
theorem cover4 (i : S1024x8x512.Idx) :
    ∃ t : Fin cfg0.N, (cfg0.win 4).flush t = true ∧ i ∈ ((cfg0.win 4).blk t).view.set := by
  have hi0 : (i 0).val < 1024 := (i 0).isLt
  have hi1 : (i 1).val < 8 := (i 1).isLt
  have hi2 : (i 2).val < 512 := (i 2).isLt
  obtain ⟨t, ht⟩ : ∃ t : Fin cfg0.N, t.val = (i 0).val / 256 :=
    ⟨⟨(i 0).val / 256, by rw [show cfg0.N = 4 from N_0]; omega⟩, rfl⟩
  obtain ⟨-, -, -, -, -, -, -, -, -, e0, e1, e2, -, -, -, -, -, -⟩ := idx_facts t
  refine ⟨t, flush0_4 t, ?_⟩
  rw [mem_blk4]
  intro a
  match a with
  | ⟨0, _⟩ =>
    show win0_4.index t (0 : Fin 3) * 256 ≤ (i 0).val ∧ (i 0).val < win0_4.index t (0 : Fin 3) * 256 + 256
    rw [e0, ht]; omega
  | ⟨1, _⟩ =>
    show win0_4.index t (1 : Fin 3) * 8 ≤ (i 1).val ∧ (i 1).val < win0_4.index t (1 : Fin 3) * 8 + 8
    rw [e1]; omega
  | ⟨2, _⟩ =>
    show win0_4.index t (2 : Fin 3) * 512 ≤ (i 2).val ∧ (i 2).val < win0_4.index t (2 : Fin 3) * 512 + 512
    rw [e2]; omega

/-- Result 1 after the run is the result of the whole batch. -/
theorem final4 (H4 : Out4Spec) (m : (ℓ : Loc nD τ sig) → Buf (Elt Ideal) ℓ) (c : Dev nD) :
    (dats (F := Ideal) m 0 c).arrAt 4 cfg0.N = Cert.Spec.mulG (B := 1024) (V m c main_arg0) (V m c main_arg2) (V m c main_arg3) :=
  (dats (F := Ideal) m 0 c).arrAt_eq_of_cover 4 (Cert.Spec.mulG (B := 1024) (V m c main_arg0) (V m c main_arg2) (V m c main_arg3))
    (fun t _ => flushed4_eq H4 m c t) cover4

/-- What point t writes back to result 2 is rows 256·t … of the result of the whole batch. -/
theorem flushed5_eq (H5 : Out5Spec) (m : (ℓ : Loc nD τ sig) → Buf (Elt Ideal) ℓ) (c : Dev nD)
    (t : Fin cfg0.N) :
    (dats (F := Ideal) m 0 c).flushed 5 t = ((cfg0.win 5).blk t).view.read (Elt Ideal)
      (Cert.Spec.kasKT (B := 1024) (V m c main_arg0) (V m c main_arg2) (V m c main_arg3) (V m c main_arg1)) := by
  show (cfg0.win 5).cut (grid0.coords t) ((dats m 0 c).after 5 t) = _
  rw [after0_5]
  unfold outsAt0
  dsimp only
  rw [H5, iblk1_eq m c t, iblk2_eq m c t, iblk3_eq m c t]
  obtain ⟨-, -, -, -, -, -, -, -, -, -, -, -, e0, e1, e2, -, -, -⟩ := idx_facts t
  funext j
  show Cert.Spec.kasKT (B := 256) (iblk m c 0 t) (V m c main_arg2) (V m c main_arg3) (V m c main_arg1) ((cfg0.win 5).xinj (grid0.coords t) j)
    = Cert.Spec.kasKT (B := 1024) (V m c main_arg0) (V m c main_arg2) (V m c main_arg3) (V m c main_arg1) (((cfg0.win 5).blk t).view.emb j)
  refine kasKT_block (V m c main_arg0) (iblk m c 0 t) (V m c main_arg2) (V m c main_arg3) (V m c main_arg1) t.val (iblk0_apply m c t) ((cfg0.win 5).xinj (grid0.coords t) j)
    (((cfg0.win 5).blk t).view.emb j) ?_ ?_ ?_
  · show win0_5.index t (0 : Fin 3) * 256 + 1 * (j 0).val = t.val * 256 + (j 0).val; rw [e0]; omega
  · show win0_5.index t (1 : Fin 3) * 8 + 1 * (j 1).val = (j 1).val; rw [e1]; omega
  · show win0_5.index t (2 : Fin 3) * 50 + 1 * (j 2).val = (j 2).val; rw [e2]; omega

/-- An index of the array is in point t's block when each coordinate is in the block's range on its axis. -/
theorem mem_blk5 (t : Fin cfg0.N) (i : S1024x8x50.Idx) :
    i ∈ ((cfg0.win 5).blk t).view.set ↔ ∀ a : Fin 3, win0_5.index t a * S256x8x50.size a ≤ (i a).val
      ∧ (i a).val < win0_5.index t a * S256x8x50.size a + S256x8x50.size a := by
  show i ∈ ((View.whole main_v0_1).slice (win0_5.rect t)).set ↔ _
  rw [View.set_slice_whole, Rect.mem_set_unit]
  exact Iff.rfl

/-- Row r lies in the block of point r / 256: the four blocks fill the array. -/
theorem cover5 (i : S1024x8x50.Idx) :
    ∃ t : Fin cfg0.N, (cfg0.win 5).flush t = true ∧ i ∈ ((cfg0.win 5).blk t).view.set := by
  have hi0 : (i 0).val < 1024 := (i 0).isLt
  have hi1 : (i 1).val < 8 := (i 1).isLt
  have hi2 : (i 2).val < 50 := (i 2).isLt
  obtain ⟨t, ht⟩ : ∃ t : Fin cfg0.N, t.val = (i 0).val / 256 :=
    ⟨⟨(i 0).val / 256, by rw [show cfg0.N = 4 from N_0]; omega⟩, rfl⟩
  obtain ⟨-, -, -, -, -, -, -, -, -, -, -, -, e0, e1, e2, -, -, -⟩ := idx_facts t
  refine ⟨t, flush0_5 t, ?_⟩
  rw [mem_blk5]
  intro a
  match a with
  | ⟨0, _⟩ =>
    show win0_5.index t (0 : Fin 3) * 256 ≤ (i 0).val ∧ (i 0).val < win0_5.index t (0 : Fin 3) * 256 + 256
    rw [e0, ht]; omega
  | ⟨1, _⟩ =>
    show win0_5.index t (1 : Fin 3) * 8 ≤ (i 1).val ∧ (i 1).val < win0_5.index t (1 : Fin 3) * 8 + 8
    rw [e1]; omega
  | ⟨2, _⟩ =>
    show win0_5.index t (2 : Fin 3) * 50 ≤ (i 2).val ∧ (i 2).val < win0_5.index t (2 : Fin 3) * 50 + 50
    rw [e2]; omega

/-- Result 2 after the run is the result of the whole batch. -/
theorem final5 (H5 : Out5Spec) (m : (ℓ : Loc nD τ sig) → Buf (Elt Ideal) ℓ) (c : Dev nD) :
    (dats (F := Ideal) m 0 c).arrAt 5 cfg0.N = Cert.Spec.kasKT (B := 1024) (V m c main_arg0) (V m c main_arg2) (V m c main_arg3) (V m c main_arg1) :=
  (dats (F := Ideal) m 0 c).arrAt_eq_of_cover 5 (Cert.Spec.kasKT (B := 1024) (V m c main_arg0) (V m c main_arg2) (V m c main_arg3) (V m c main_arg1))
    (fun t _ => flushed5_eq H5 m c t) cover5

/-- What point t writes back to result 3 is rows 256·t … of the result of the whole batch. -/
theorem flushed6_eq (H6 : Out6Spec) (m : (ℓ : Loc nD τ sig) → Buf (Elt Ideal) ℓ) (c : Dev nD)
    (t : Fin cfg0.N) :
    (dats (F := Ideal) m 0 c).flushed 6 t = ((cfg0.win 6).blk t).view.read (Elt Ideal)
      (Cert.Spec.distKT (B := 1024) (V m c main_arg0) (V m c main_arg2) (V m c main_arg3) (V m c main_arg1)) := by
  show (cfg0.win 6).cut (grid0.coords t) ((dats m 0 c).after 6 t) = _
  rw [after0_6]
  unfold outsAt0
  dsimp only
  rw [H6, iblk1_eq m c t, iblk2_eq m c t, iblk3_eq m c t]
  obtain ⟨-, -, -, -, -, -, -, -, -, -, -, -, -, -, -, e0, e1, e2⟩ := idx_facts t
  funext j
  show Cert.Spec.distKT (B := 256) (iblk m c 0 t) (V m c main_arg2) (V m c main_arg3) (V m c main_arg1) ((cfg0.win 6).xinj (grid0.coords t) j)
    = Cert.Spec.distKT (B := 1024) (V m c main_arg0) (V m c main_arg2) (V m c main_arg3) (V m c main_arg1) (((cfg0.win 6).blk t).view.emb j)
  refine distKT_block (V m c main_arg0) (iblk m c 0 t) (V m c main_arg2) (V m c main_arg3) (V m c main_arg1) t.val (iblk0_apply m c t) ((cfg0.win 6).xinj (grid0.coords t) j)
    (((cfg0.win 6).blk t).view.emb j) ?_ ?_ ?_
  · show win0_6.index t (0 : Fin 3) * 256 + 1 * (j 0).val = t.val * 256 + (j 0).val; rw [e0]; omega
  · show win0_6.index t (1 : Fin 3) * 8 + 1 * (j 1).val = (j 1).val; rw [e1]; omega
  · show win0_6.index t (2 : Fin 3) * 50 + 1 * (j 2).val = (j 2).val; rw [e2]; omega

/-- An index of the array is in point t's block when each coordinate is in the block's range on its axis. -/
theorem mem_blk6 (t : Fin cfg0.N) (i : S1024x8x50.Idx) :
    i ∈ ((cfg0.win 6).blk t).view.set ↔ ∀ a : Fin 3, win0_6.index t a * S256x8x50.size a ≤ (i a).val
      ∧ (i a).val < win0_6.index t a * S256x8x50.size a + S256x8x50.size a := by
  show i ∈ ((View.whole main_v0_2).slice (win0_6.rect t)).set ↔ _
  rw [View.set_slice_whole, Rect.mem_set_unit]
  exact Iff.rfl

/-- Row r lies in the block of point r / 256: the four blocks fill the array. -/
theorem cover6 (i : S1024x8x50.Idx) :
    ∃ t : Fin cfg0.N, (cfg0.win 6).flush t = true ∧ i ∈ ((cfg0.win 6).blk t).view.set := by
  have hi0 : (i 0).val < 1024 := (i 0).isLt
  have hi1 : (i 1).val < 8 := (i 1).isLt
  have hi2 : (i 2).val < 50 := (i 2).isLt
  obtain ⟨t, ht⟩ : ∃ t : Fin cfg0.N, t.val = (i 0).val / 256 :=
    ⟨⟨(i 0).val / 256, by rw [show cfg0.N = 4 from N_0]; omega⟩, rfl⟩
  obtain ⟨-, -, -, -, -, -, -, -, -, -, -, -, -, -, -, e0, e1, e2⟩ := idx_facts t
  refine ⟨t, flush0_6 t, ?_⟩
  rw [mem_blk6]
  intro a
  match a with
  | ⟨0, _⟩ =>
    show win0_6.index t (0 : Fin 3) * 256 ≤ (i 0).val ∧ (i 0).val < win0_6.index t (0 : Fin 3) * 256 + 256
    rw [e0, ht]; omega
  | ⟨1, _⟩ =>
    show win0_6.index t (1 : Fin 3) * 8 ≤ (i 1).val ∧ (i 1).val < win0_6.index t (1 : Fin 3) * 8 + 8
    rw [e1]; omega
  | ⟨2, _⟩ =>
    show win0_6.index t (2 : Fin 3) * 50 ≤ (i 2).val ∧ (i 2).val < win0_6.index t (2 : Fin 3) * 50 + 50
    rw [e2]; omega

/-- Result 3 after the run is the result of the whole batch. -/
theorem final6 (H6 : Out6Spec) (m : (ℓ : Loc nD τ sig) → Buf (Elt Ideal) ℓ) (c : Dev nD) :
    (dats (F := Ideal) m 0 c).arrAt 6 cfg0.N = Cert.Spec.distKT (B := 1024) (V m c main_arg0) (V m c main_arg2) (V m c main_arg3) (V m c main_arg1) :=
  (dats (F := Ideal) m 0 c).arrAt_eq_of_cover 6 (Cert.Spec.distKT (B := 1024) (V m c main_arg0) (V m c main_arg2) (V m c main_arg3) (V m c main_arg1))
    (fun t _ => flushed6_eq H6 m c t) cover6

end Cert.KArrays

end
-- ==== Proof.KernelArrays.lean ====
/-
  The kernel's run, read: the three results as functions of the four argument arrays.

  After the grid the first result array holds the projection of the whole batch, and the two others the twice-normalised
  and the normalised scores in the layout [1024, 8, 50]. Two operations follow the grid: each exchanges the last two axes
  of one of these arrays, so the arrays the program returns are [1024, 50, 8], entry (b, k, c) being entry (b, c, k) of
  the array the grid left. No operation writes an argument array.
-/
import proofs.«173172_j47614007444072_2_alg».proof.Proof.Gen.KernelIdeal.Frame
import proofs.«173172_j47614007444072_2_alg».proof.Proof.Spec
import proofs.«173172_j47614007444072_2_alg».proof.Proof.KernelCover
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KArrays

open Cert.KernelIdeal Cert.KernelIdeal.Gen
open Idealize.ShloMosaic Idealize.ShloMosaic.TcCoe Idealize.ShloMosaic.Tactic
open Idealize.SL Idealize.SL.Sem
open Idealize.ShloMosaic.Pipeline (Dat Cfg Window)
open Idealize.ShloMosaic.ValueIdx

variable (m : (ℓ : Loc nD τ sig) → Buf (Elt Ideal) ℓ) (ρ : Dev nD → PrngReg)

/-- The two returned score arrays are buffers of the program that the grid does not stage. -/
theorem mem_v1 : main_v1 ∈ Pipeline.restRefs sig (cfgs 0).spec := Pipeline.mem_restRefs_of main_v1 (by decide) (by decide)
theorem mem_v2 : main_v2 ∈ Pipeline.restRefs sig (cfgs 0).spec := Pipeline.mem_restRefs_of main_v2 (by decide) (by decide)

/-- The twice-normalised scores as the program returns them: the grid's array with its last two axes exchanged. -/
theorem tail_v1 (H5 : Out5Spec) (m : (ℓ : Loc nD τ sig) → Buf (Elt Ideal) ℓ) (c : Dev nD) :
    (Pipeline.afterTail₀ cfgs (dats (F := Ideal) m) 0 (V0 m) [hostOps1] c main_v1 : S1024x50x8.Idx → EReal)
      = (fun i => Cert.Spec.kasKT (B := 1024) (V m c main_arg0) (V m c main_arg2) (V m c main_arg3) (V m c main_arg1)
          (ix3 (i 0) (i 2) (i 1))) := by
  unfold Pipeline.afterTail₀
  show StableHlo.after hostOps1 _ (Proc.devRef .tc main_v1) = _
  after_results
  have e : (Pipeline.withArrays (cfgs 0).spec c (V0 m c) (fun w => (dats (F := Ideal) m 0 c).arrAt w (cfgs 0).N)
        (Proc.devRef .tc main_v0_1) : S1024x8x50.Idx → EReal)
      = Cert.Spec.kasKT (B := 1024) (V m c main_arg0) (V m c main_arg2) (V m c main_arg3) (V m c main_arg1) :=
    (Pipeline.withArrays_arr spec0 launch0.win.arr_inj c _ _ 5).trans (final5 H5 m c)
  rw [e]
  funext i
  obtain ⟨b, k, cc, rfl⟩ : ∃ (b : Fin 1024) (k : Fin 50) (cc : Fin 8), i = ix3 b k cc := ⟨i 0, i 1, i 2, eq_ix3 i⟩
  exact transpose_ix3_021_apply _ _ b k cc

/-- The normalised scores as the program returns them: the grid's array with its last two axes exchanged. -/
theorem tail_v2 (H6 : Out6Spec) (m : (ℓ : Loc nD τ sig) → Buf (Elt Ideal) ℓ) (c : Dev nD) :
    (Pipeline.afterTail₀ cfgs (dats (F := Ideal) m) 0 (V0 m) [hostOps1] c main_v2 : S1024x50x8.Idx → EReal)
      = (fun i => Cert.Spec.distKT (B := 1024) (V m c main_arg0) (V m c main_arg2) (V m c main_arg3) (V m c main_arg1)
          (ix3 (i 0) (i 2) (i 1))) := by
  unfold Pipeline.afterTail₀
  show StableHlo.after hostOps1 _ (Proc.devRef .tc main_v2) = _
  after_results
  have e : (Pipeline.withArrays (cfgs 0).spec c (V0 m c) (fun w => (dats (F := Ideal) m 0 c).arrAt w (cfgs 0).N)
        (Proc.devRef .tc main_v0_2) : S1024x8x50.Idx → EReal)
      = Cert.Spec.distKT (B := 1024) (V m c main_arg0) (V m c main_arg2) (V m c main_arg3) (V m c main_arg1) :=
    (Pipeline.withArrays_arr spec0 launch0.win.arr_inj c _ _ 6).trans (final6 H6 m c)
  rw [e]
  funext i
  obtain ⟨b, k, cc, rfl⟩ : ∃ (b : Fin 1024) (k : Fin 50) (cc : Fin 8), i = ix3 b k cc := ⟨i 0, i 1, i 2, eq_ix3 i⟩
  exact transpose_ix3_021_apply _ _ b k cc

/-- The kernel's run: the projection, the two score arrays with the class axis before the centre axis, and the
    arguments unchanged. -/
theorem kernel_run (H4 : Out4Spec) (H5 : Out5Spec) (H6 : Out6Spec) (m : (ℓ : Loc nD τ sig) → Buf (Elt Ideal) ℓ)
    (ρ : Dev nD → PrngReg) :
    θ_run defs (onTc (τ := τ) (main (F := Ideal))) ⟨m, fun _ => 0, ρ⟩ (fun r => ∀ c : Dev nD,
        r.2.mem ((c.tc : Thread nD τ).loc main_v0_0) = Cert.Spec.mulG (B := 1024) (m ((c.tc : Thread nD τ).loc main_arg0)) (m ((c.tc : Thread nD τ).loc main_arg2)) (m ((c.tc : Thread nD τ).loc main_arg3))
      ∧ r.2.mem ((c.tc : Thread nD τ).loc main_v1) = (fun (i : S1024x50x8.Idx) => Cert.Spec.kasKT (B := 1024) (m ((c.tc : Thread nD τ).loc main_arg0)) (m ((c.tc : Thread nD τ).loc main_arg2))
          (m ((c.tc : Thread nD τ).loc main_arg3)) (m ((c.tc : Thread nD τ).loc main_arg1)) (ix3 (i 0) (i 2) (i 1)))
      ∧ r.2.mem ((c.tc : Thread nD τ).loc main_v2) = (fun (i : S1024x50x8.Idx) => Cert.Spec.distKT (B := 1024) (m ((c.tc : Thread nD τ).loc main_arg0)) (m ((c.tc : Thread nD τ).loc main_arg2))
          (m ((c.tc : Thread nD τ).loc main_arg3)) (m ((c.tc : Thread nD τ).loc main_arg1)) (ix3 (i 0) (i 2) (i 1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨((h c).1 4).trans (final4 H4 m c),
      ((h c).2 main_v1 mem_v1).trans (tail_v1 H5 m c),
      ((h c).2 main_v2 mem_v2).trans (tail_v2 H6 m c),
      ((h c).1 0).trans (((dats (F := Ideal) m 0 c).arrAt_in 0 rfl _).trans ((A_eq m c 0).trans (V_main_arg0 m c))),
      ((h c).1 3).trans (((dats (F := Ideal) m 0 c).arrAt_in 3 rfl _).trans ((A_eq m c 3).trans (V_main_arg1 m c))),
      ((h c).1 1).trans (((dats (F := Ideal) m 0 c).arrAt_in 1 rfl _).trans ((A_eq m c 1).trans (V_main_arg2 m c))),
      ((h c).1 2).trans (((dats (F := Ideal) m 0 c).arrAt_in 2 rfl _).trans ((A_eq m c 2).trans (V_main_arg3 m c)))⟩)
    (run_main m ρ)

end Cert.KArrays

end
-- ==== Proof.RefSide.lean ====
/-
  The reference program computes the functions of the specification, entry by entry.

  Each stage of the reference is read at an index written by coordinates; the layout stages (insertions of a unit axis
  and repetitions along it) only move the coordinates, the arithmetic stages act entry by entry, the contraction and the
  sums are finite sums over the last coordinate, started from the float zero, which denotes 0. Composing the stages gives
  the masked projection P, the sum of squared differences, the score s, the first normalisation D and the second A.
-/
import proofs.«173172_j47614007444072_2_alg».proof.Proof.Gen.ReferenceIdeal.Read
import proofs.«173172_j47614007444072_2_alg».proof.Proof.Spec

noncomputable section

namespace Cert.RefSide

open Cert.ReferenceIdeal Cert.ReferenceIdeal.Read Idealize.ShloMosaic Idealize.ShloMosaic.ValueIdx Cert.Spec

variable (x0 : (⟨S1024x512, .f32⟩ : BufTy).Contents (Elt Ideal)) (x1 : (⟨S50x8x512, .f32⟩ : BufTy).Contents (Elt Ideal))
  (x2 : (⟨S8x512, .f32⟩ : BufTy).Contents (Elt Ideal)) (x3 : (⟨S512x512, .f32⟩ : BufTy).Contents (Elt Ideal))

/-- The masked copy of x: entry (b, c, h) is x[b, h] · m[c, h]. -/
theorem v4_at (b : Fin 1024) (c : Fin 8) (h : Fin 512) :
    val_main_v4 (F := Ideal) x0 x2 (ix3 b c h) = at2 x0 b h * at2 x2 c h := by
  rw [val_main_v4_apply, val_main_v2_apply, val_main_v0_apply, val_main_v3_apply, val_main_v1_apply, Ideal.mulf_def]
  have e0 : idx_main_v0 (idx_main_v2 (ix3 b c h)) = ix2 b h := by
    funext a; match a with | ⟨0, _⟩ => rfl | ⟨1, _⟩ => rfl
  have e1 : idx_main_v1 (idx_main_v3 (ix3 b c h)) = ix2 c h := by
    funext a; match a with | ⟨0, _⟩ => rfl | ⟨1, _⟩ => rfl
  rw [e0, e1]
  rfl

/-- The projection: entry (b, c, d) is Σ_h (x[b, h] · m[c, h]) · W[h, d]. -/
theorem v5_at (b : Fin 1024) (c : Fin 8) (d : Fin 512) :
    val_main_v5 (F := Ideal) x0 x2 x3 (ix3 b c d) = proj (at2 x0) (at2 x2) (at2 x3) b c d := by
  rw [val_main_v5_apply]
  unfold proj
  refine Finset.sum_congr rfl fun h _ => ?_
  have el : lidx_main_v5 (ix3 b c d) h = ix3 b c h := by
    funext a; match a with | ⟨0, _⟩ => rfl | ⟨1, _⟩ => rfl | ⟨2, _⟩ => rfl
  have er : ridx_main_v5 (ix3 b c d) h = ix2 h d := by
    funext a; match a with | ⟨0, _⟩ => rfl | ⟨1, _⟩ => rfl
  rw [el, er, v4_at]
  rfl

/-- The difference: entry (b, k, c, h) is P[b, c, h] − μ[k, c, h]. -/
theorem v10_at (b : Fin 1024) (k : Fin 50) (c : Fin 8) (h : Fin 512) :
    val_main_v10 (F := Ideal) x0 x1 x2 x3 (ix4 b k c h)
      = proj (at2 x0) (at2 x2) (at2 x3) b c h - at3 x1 k c h := by
  rw [val_main_v10_apply, val_main_v8_apply, val_main_v6_apply, val_main_v9_apply, val_main_v7_apply, Ideal.subf_def]
  have e0 : idx_main_v6 (idx_main_v8 (ix4 b k c h)) = ix3 b c h := by
    funext a; match a with | ⟨0, _⟩ => rfl | ⟨1, _⟩ => rfl | ⟨2, _⟩ => rfl
  have e1 : idx_main_v7 (idx_main_v9 (ix4 b k c h)) = ix3 k c h := by
    funext a; match a with | ⟨0, _⟩ => rfl | ⟨1, _⟩ => rfl | ⟨2, _⟩ => rfl
  rw [e0, e1, v5_at]
  rfl

/-- The sum of squared differences: the sum over h, started from the float zero, which denotes 0. -/
theorem v12_at (b : Fin 1024) (k : Fin 50) (c : Fin 8) :
    val_main_v12 (F := Ideal) x0 x1 x2 x3 (ix3 b k c)
      = ∑ h : Fin 512, (proj (at2 x0) (at2 x2) (at2 x3) b c h - at3 x1 k c h)
          * (proj (at2 x0) (at2 x2) (at2 x3) b c h - at3 x1 k c h) := by
  rw [val_main_v12_apply, val_main_cst_apply, Ideal.ofBits_def, Ideal.ofBits_zero_f32, zero_add]
  refine Finset.sum_congr rfl fun h _ => ?_
  have e : idx_main_v12 (ix3 b k c) h = ix4 b k c h := by
    funext a; match a with | ⟨0, _⟩ => rfl | ⟨1, _⟩ => rfl | ⟨2, _⟩ => rfl | ⟨3, _⟩ => rfl
  rw [e, val_main_v11_apply, Ideal.mulf_def, v10_at]

/-- The score: 1 / (1 + the sum of squared differences). -/
theorem v16_at (b : Fin 1024) (k : Fin 50) (c : Fin 8) :
    val_main_v16 (F := Ideal) x0 x1 x2 x3 (ix3 b k c)
      = scoreR (proj (at2 x0) (at2 x2) (at2 x3)) (at3 x1) b k c := by
  rw [val_main_v16_apply, val_main_v15_apply, val_main_cst_1_apply, val_main_v14_apply, val_main_v13_apply,
    val_main_cst_0_apply, v12_at, Ideal.hostDivf_def, Ideal.addf_def]
  rfl

/-- The sum of the scores over the centres. -/
theorem v17_at (b : Fin 1024) (k : Fin 50) :
    val_main_v17 (F := Ideal) x0 x1 x2 x3 (ix2 b k)
      = ∑ c : Fin 8, scoreR (proj (at2 x0) (at2 x2) (at2 x3)) (at3 x1) b k c := by
  rw [val_main_v17_apply, val_main_cst_2_apply, Ideal.ofBits_def, Ideal.ofBits_zero_f32, zero_add]
  refine Finset.sum_congr rfl fun c _ => ?_
  have e : idx_main_v17 (ix2 b k) c = ix3 b k c := by
    funext a; match a with | ⟨0, _⟩ => rfl | ⟨1, _⟩ => rfl | ⟨2, _⟩ => rfl
  rw [e, v16_at]

/-- The first normalisation. -/
theorem v22_at (b : Fin 1024) (k : Fin 50) (c : Fin 8) :
    val_main_v22 (F := Ideal) x0 x1 x2 x3 (ix3 b k c)
      = dist (scoreR (proj (at2 x0) (at2 x2) (at2 x3)) (at3 x1)) b k c := by
  rw [val_main_v22_apply, val_main_v21_apply, val_main_v20_apply, val_main_v18_apply, val_main_v19_apply,
    val_main_cst_3_apply, v16_at, Ideal.hostDivf_def, Ideal.addf_def]
  have e : idx_main_v18 (idx_main_v21 (ix3 b k c)) = ix2 b k := by
    funext a; match a with | ⟨0, _⟩ => rfl | ⟨1, _⟩ => rfl
  rw [e, v17_at]
  rfl

/-- The sum of the normalised scores over the centres. -/
theorem v23_at (b : Fin 1024) (k : Fin 50) :
    val_main_v23 (F := Ideal) x0 x1 x2 x3 (ix2 b k)
      = ∑ c : Fin 8, dist (scoreR (proj (at2 x0) (at2 x2) (at2 x3)) (at3 x1)) b k c := by
  rw [val_main_v23_apply, val_main_cst_4_apply, Ideal.ofBits_def, Ideal.ofBits_zero_f32, zero_add]
  refine Finset.sum_congr rfl fun c _ => ?_
  have e : idx_main_v23 (ix2 b k) c = ix3 b k c := by
    funext a; match a with | ⟨0, _⟩ => rfl | ⟨1, _⟩ => rfl | ⟨2, _⟩ => rfl
  rw [e, v22_at]

/-- The second normalisation. -/
theorem v26_at (b : Fin 1024) (k : Fin 50) (c : Fin 8) :
    val_main_v26 (F := Ideal) x0 x1 x2 x3 (ix3 b k c)
      = kas (dist (scoreR (proj (at2 x0) (at2 x2) (at2 x3)) (at3 x1))) b k c := by
  rw [val_main_v26_apply, val_main_v25_apply, val_main_v24_apply, v22_at, Ideal.hostDivf_def]
  have e : idx_main_v24 (idx_main_v25 (ix3 b k c)) = ix2 b k := by
    funext a; match a with | ⟨0, _⟩ => rfl | ⟨1, _⟩ => rfl
  rw [e, v23_at]
  rfl

/-! ## The three results -/

/-- The reference's first result is the projection P. -/
theorem ref_mul : val_main_v5 (F := Ideal) x0 x2 x3 = mulG (B := 1024) x0 x2 x3 := by
  funext i
  obtain ⟨b, c, d, rfl⟩ : ∃ (b : Fin 1024) (c : Fin 8) (d : Fin 512), i = ix3 b c d := ⟨i 0, i 1, i 2, eq_ix3 i⟩
  rw [v5_at]
  rfl

/-- The reference's third result is the normalised scores D. -/
theorem ref_dist : val_main_v22 (F := Ideal) x0 x1 x2 x3 = distG (B := 1024) x0 x1 x2 x3 := by
  funext i
  obtain ⟨b, k, c, rfl⟩ : ∃ (b : Fin 1024) (k : Fin 50) (c : Fin 8), i = ix3 b k c := ⟨i 0, i 1, i 2, eq_ix3 i⟩
  rw [v22_at]
  rfl

/-- The reference's second result is the twice-normalised scores A. -/
theorem ref_kas : val_main_v26 (F := Ideal) x0 x1 x2 x3 = kasG (B := 1024) x0 x1 x2 x3 := by
  funext i
  obtain ⟨b, k, c, rfl⟩ : ∃ (b : Fin 1024) (k : Fin 50) (c : Fin 8), i = ix3 b k c := ⟨i 0, i 1, i 2, eq_ix3 i⟩
  rw [v26_at]
  rfl

end Cert.RefSide

end
-- ==== Proof.LibFiniteInputs.lean ====
/-
  A reusable lemma: what the precondition "every entry is finite" says over the extended reals.

  The precondition is written as all(|x| < +∞): the entrywise absolute value compared, by the ordered "less than", with
  the splat of the float pattern of +∞, and the comparisons reduced by "and" over every axis from the constant true.
  Over the extended reals the pattern of +∞ denotes ⊤, the absolute value of x is max x (−x), and max x (−x) < ⊤ holds
  exactly when x is neither ⊤ nor ⊥: so the reduction being true says that every entry is a real number.
-/
import proofs.«173172_j47614007444072_2_alg».proof.Proof.LibRealEntries
import Idealize.ShloMosaic.Lib.ReduceAll

noncomputable section

namespace Cert.RealEntries

open Idealize.ShloMosaic

/-- The float pattern of +∞ denotes ⊤. -/
theorem ofBits_inf : Ideal.ofBits .f32 0x7F800000#32 = ⊤ := by
  simp [Ideal.ofBits, Ideal.ieee]

/-- |x| < ⊤ says that x is a real number. -/
theorem isR_of_abs_lt_top (x : EReal) (h : Ideal.cmp .olt (max x (-x)) ⊤ = 1#1) : IsR x := by
  have h' : max x (-x) < ⊤ := by
    have h1 : Ideal.cmp .olt (max x (-x)) ⊤ = BitVec.ofBool (decide (max x (-x) < ⊤)) := rfl
    rw [h1] at h
    by_contra hn
    rw [decide_eq_false hn] at h
    exact absurd h (by decide)
  induction x using EReal.rec with
  | bot => simp at h'
  | coe r => exact ⟨r, rfl⟩
  | top => simp at h'

/-- all(|x| < +∞) reduced over every axis is true: every entry of x is a real number. -/
theorem allReal_of_all_finite {s t u : Shape} {axes : List (Fin s.rank)} [Subsingleton t.Idx] (x : FVec Ideal s .f32)
    (hb : (⟨0, ![]⟩ : Shape).BroadcastsInDim s (![] : Fin 0 → Fin s.rank)) (init : u.Idx → BitVec 1)
    (h : s.ReducesTo axes t) (hu : 0 < u.numel) (j : t.Idx)
    (e : Host.reduce IntOp.andi
        (cmpf .olt (Host.absf x) (broadcastInDim s ![] hb (constant (F := Ideal) ⟨0, ![]⟩ .f32 0x7F800000#32))) init h hu j = 1#1) :
    AllReal x := fun i => by
  have hi := Host.reduce_andi_all _ init h hu j e i
  refine isR_of_abs_lt_top (x i) ?_
  rw [← ofBits_inf]
  exact hi

end Cert.RealEntries

end
-- ==== Proof.FiniteArgs.lean ====
/-
  The precondition "every input entry is finite" says that the four argument arrays consist of real numbers.

  The precondition is the conjunction, by "and" on one-bit words, of four reductions all(|x| < +∞), one per argument.
  A conjunction of one-bit words is 1 exactly when both words are 1, so each of the four reductions is 1, and a
  reduction all(|x| < +∞) equal to 1 says that every entry of x is a real number.
-/
import proofs.«173172_j47614007444072_2_alg».proof.Pre_finite_inputs
import proofs.«173172_j47614007444072_2_alg».proof.Proof.Gen.Pre_finite_inputs
import proofs.«173172_j47614007444072_2_alg».proof.Proof.LibFiniteInputs

noncomputable section

namespace Cert.FiniteArgs

open Idealize.ShloMosaic Cert.Pre_finite_inputs

variable [Cert.Pre_finite_inputs.Facts]

/-- The scalar shape has one index. -/
instance : Subsingleton S_.Idx := ⟨fun _ _ => funext fun d => d.elim0⟩

/-- If the precondition holds then every entry of each of the four arguments is a real number. -/
theorem allReal_of_pre (x0 : FVec Ideal S1024x512 .f32) (x1 : FVec Ideal S50x8x512 .f32) (x2 : FVec Ideal S8x512 .f32)
    (x3 : FVec Ideal S512x512 .f32) (h : Cert.Pre_finite_inputs.fn (F := Ideal) x0 x1 x2 x3 = fun _ => 1#1) :
    Cert.RealEntries.AllReal x0 ∧ Cert.RealEntries.AllReal x1 ∧ Cert.RealEntries.AllReal x2
      ∧ Cert.RealEntries.AllReal x3 := by
  have h0 := congrFun h ValueIdx.ix0
  dsimp only [Cert.Pre_finite_inputs.fn, Cert.Pre_finite_inputs.fn_part1] at h0
  obtain ⟨h012, e3⟩ := IntOp.andi_eq_one.1 h0
  obtain ⟨h01, e2⟩ := IntOp.andi_eq_one.1 h012
  obtain ⟨e0, e1⟩ := IntOp.andi_eq_one.1 h01
  exact ⟨Cert.RealEntries.allReal_of_all_finite x0 _ _ _ _ _ e0, Cert.RealEntries.allReal_of_all_finite x1 _ _ _ _ _ e1,
    Cert.RealEntries.allReal_of_all_finite x2 _ _ _ _ _ e2, Cert.RealEntries.allReal_of_all_finite x3 _ _ _ _ _ e3⟩

end Cert.FiniteArgs

end
-- ==== Proof.lean ====
/-
  The kernel and its reference compute the same three arrays over the extended reals.

  From a batch x [1024, 512], masks m [8, 512], a projection W [512, 512] and centres μ [50, 8, 512] both programs form

      P[b, c, d] = Σ_h (x[b, h] · m[c, h]) · W[h, d],
      s[b, k, c] = 1 / (1 + ‖P[b, c, ·] − μ[k, c, ·]‖²),
      D[b, k, c] = s[b, k, c] / (Σ_c' s[b, k, c'] + ε),        A[b, k, c] = D[b, k, c] / Σ_c' D[b, k, c'],

  and return P, A and D. The reference computes the squared distance as the sum over h of the squared differences. The
  kernel works on blocks of 256 rows, keeps the centre axis before the class axis (its two normalised results are
  transposed back afterwards), and expands the squared distance into Σ P² − 2·Σ P·μ + Σ μ², the middle term a matrix
  product. The two arrangements agree because (a − b)² = a² − 2ab + b² holds for real numbers; on the extended reals it
  fails at the infinities, so the precondition — every input entry finite — is used: it makes every entry of x, m, W and μ,
  hence of P, a real number. Everything else (the matrix unit's product into zeros against the host's contraction, row sums
  against host reductions, the chain of seven additions against a sum over the centres, changes of float format) is the same
  function at the ideal instance without any such hypothesis.

  The modules: Spec (the four functions and the law joining the two arrangements), KernelUniform / KernelEntries /
  KernelNorm / KernelPieces / KernelBlock (what one grid point leaves in each output block, as a function of the point's
  input blocks), RowLocal / KernelCover / KernelArrays (each row of the results depends on its own row of x only; from the
  blocks to the whole arrays; the two transposes), RefSide (the
  reference's stages read entry by entry), FiniteArgs (the precondition read as "every entry is real").
-/
import proofs.«173172_j47614007444072_2_alg».proof.Defs
import proofs.«173172_j47614007444072_2_alg».proof.Proof.Gen.Kernel
import proofs.«173172_j47614007444072_2_alg».proof.Proof.Gen.Kernel.Frame
import proofs.«173172_j47614007444072_2_alg».proof.Proof.Gen.KernelIdeal
import proofs.«173172_j47614007444072_2_alg».proof.Proof.Gen.KernelIdeal.Frame
import proofs.«173172_j47614007444072_2_alg».proof.Proof.Gen.ReferenceIdeal
import proofs.«173172_j47614007444072_2_alg».proof.Proof.Gen.ReferenceIdeal.Read
import proofs.«173172_j47614007444072_2_alg».proof.Proof.Gen.Pre_finite_inputs
import proofs.«173172_j47614007444072_2_alg».proof.Proof.KernelBlock
import proofs.«173172_j47614007444072_2_alg».proof.Proof.KernelArrays
import proofs.«173172_j47614007444072_2_alg».proof.Proof.RefSide
import proofs.«173172_j47614007444072_2_alg».proof.Proof.FiniteArgs
import Idealize.ShloMosaic.Adequacy
import Idealize.ShloMosaic.Init

noncomputable section

namespace Cert.Proof

open Idealize.ShloMosaic Idealize.SL.Sem Idealize.ShloMosaic.ValueIdx

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the results dropped. -/
theorem frame_referenceIdeal : Cert.frame_ReferenceIdeal := fun m ρ _ =>
  (θ_run Cert.ReferenceIdeal.defs _ _).mono (fun _ h c => (h c).2.2.2)
    (Cert.ReferenceIdeal.Value.run (F := Ideal) m ρ)

/-- From memories agreeing on the arguments, all finite, both programs end with P, A and D. -/
theorem algebraic : Cert.algebraic_KernelIdeal_ReferenceIdeal := by
  intro m ρ m' ρ' hpre hagree
  refine ⟨fun c => Cert.Spec.mulG (B := 1024) (m ((c.tc : Thread Cert.KernelIdeal.nD Cert.KernelIdeal.τ).loc Cert.KernelIdeal.main_arg0)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.kasG (B := 1024) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)),
    fun c => Cert.Spec.distG (B := 1024) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)), ?_, ?_⟩
  · -- the kernel: its arrays in its own layout and arrangement, then the law for real data
    refine (θ_run Cert.KernelIdeal.defs _ _).mono (fun r h c => ?_)
      (Cert.KArrays.kernel_run Cert.KBlock.out4_eq Cert.KBlock.out5_eq Cert.KBlock.out6_eq m ρ)
    obtain ⟨hx, hmu, hm, hw⟩ := Cert.FiniteArgs.allReal_of_pre _ _ _ _ (hpre c)
    refine ⟨(h c).1, (h c).2.1.trans ?_, (h c).2.2.1.trans ?_, (h c).2.2.2⟩
    · funext i
      exact (Cert.Spec.kasKT_apply hx hm hw hmu (i 0) (i 2) (i 1)).trans (congrArg _ (eq_ix3 i).symm)
    · funext i
      exact (Cert.Spec.distKT_apply hx hm hw hmu (i 0) (i 2) (i 1)).trans (congrArg _ (eq_ix3 i).symm)
  · -- the reference: its run's terms are the stages, and the stages are the functions
    refine (θ_run Cert.ReferenceIdeal.defs _ _).mono (fun r h c => ?_)
      (Cert.ReferenceIdeal.Value.run (F := Ideal) m' ρ')
    obtain ⟨a0, a1, a2, a3⟩ := hagree c
    refine ⟨(h c).1.trans ?_, (h c).2.1.trans ?_, (h c).2.2.1.trans ?_, (h c).2.2.2⟩
    · rw [Cert.ReferenceIdeal.Read.val_main_v5_eq, Cert.RefSide.ref_mul, a0, a2, a3]
    · rw [Cert.ReferenceIdeal.Read.val_main_v26_eq, Cert.RefSide.ref_kas, a0, a1, a2, a3]
    · rw [Cert.ReferenceIdeal.Read.val_main_v22_eq, Cert.RefSide.ref_dist, a0, a1, a2, a3]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
